-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v41)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v41) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1000000 : Shape := ⟨2, ![2, 1000000]⟩
abbrev S64x64 : Shape := ⟨2, ![64, 64]⟩
abbrev S64 : Shape := ⟨1, ![64]⟩
abbrev S2x64 : Shape := ⟨2, ![2, 64]⟩
abbrev S2 : Shape := ⟨1, ![2]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S2x64 : S_.BroadcastsInDim S2x64 (![] : Fin 0 → Fin S2x64.rank)
  reducesTo_S2x64_S_d0_1 : S2x64.ReducesTo [0, 1] S_
  bcast_S_S2 : S_.BroadcastsInDim S2 (![] : Fin 0 → Fin S2.rank)
  reducesTo_S2_S_d0 : S2.ReducesTo [0] S_

variable [Facts]

def fn_part1 {F : FTy → Type} [FloatOps F] (main_arg5 : FVec F S2x64 .f32) (main_arg6 : FVec F S2x64 .f32) (main_arg7 : FVec F S2 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S2x64 .f32 := Host.absf main_arg5
  let main_cst_6 : FVec F S_ .f32 := constant S_ .f32 0x7F800000#32
  let main_v20 : FVec F S2x64 .f32 := broadcastInDim S2x64 ![] bcast_S_S2x64 main_cst_6
  let main_v21 : IVec S2x64 1 := cmpf .olt main_v19 main_v20
  let main_c_7 : IVec S_ 1 := constantI S_ 1 1#1
  let main_v22 : IVec S_ 1 := (fun x v => Host.reduce IntOp.andi x v reducesTo_S2x64_S_d0_1 h_S_) main_v21 main_c_7
  let main_v23 : IVec S_ 1 := andi main_v18 main_v22
  let main_v24 : FVec F S2x64 .f32 := Host.absf main_arg6
  let main_cst_8 : FVec F S_ .f32 := constant S_ .f32 0x7F800000#32
  let main_v25 : FVec F S2x64 .f32 := broadcastInDim S2x64 ![] bcast_S_S2x64 main_cst_8
  let main_v26 : IVec S2x64 1 := cmpf .olt main_v24 main_v25
  let main_c_9 : IVec S_ 1 := constantI S_ 1 1#1
  let main_v27 : IVec S_ 1 := (fun x v => Host.reduce IntOp.andi x v reducesTo_S2x64_S_d0_1 h_S_) main_v26 main_c_9
  let main_v28 : IVec S_ 1 := andi main_v23 main_v27
  let main_v29 : FVec F S2 .f32 := Host.absf main_arg7
  let main_cst_10 : FVec F S_ .f32 := constant S_ .f32 0x7F800000#32
  let main_v30 : FVec F S2 .f32 := broadcastInDim S2 ![] bcast_S_S2 main_cst_10
  let main_v31 : IVec S2 1 := cmpf .olt main_v29 main_v30
  let main_c_11 : IVec S_ 1 := constantI S_ 1 1#1
  let main_v32 : IVec S_ 1 := (fun x v => Host.reduce IntOp.andi x v reducesTo_S2_S_d0 h_S_) main_v31 main_c_11
  let main_v33 : IVec S_ 1 := andi main_v28 main_v32
  main_v33

def fn {F : FTy → Type} [FloatOps F] (main_arg0 : FVec F S100000x64 .f32) (main_arg1 : IVec S2x1000000 32) (main_arg2 : FVec F S64x64 .f32) (main_arg3 : FVec F S64x64 .f32) (main_arg4 : FVec F S64 .f32) (main_arg5 : FVec F S2x64 .f32) (main_arg6 : FVec F S2x64 .f32) (main_arg7 : FVec F S2 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64x64 .f32 := Host.absf main_arg3
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_arg7 main_v13 main_v16
-- ==== Kernel.lean ====
abbrev S100000x64 : Shape := ⟨2, ![100000, 64]⟩
abbrev S2x1000000 : Shape := ⟨2, ![2, 1000000]⟩
abbrev S64x64 : Shape := ⟨2, ![64, 64]⟩
abbrev S64 : Shape := ⟨1, ![64]⟩
abbrev S2x64 : Shape := ⟨2, ![2, 64]⟩
abbrev S2 : Shape := ⟨1, ![2]⟩
abbrev S1x1000000 : Shape := ⟨2, ![1, 1000000]⟩
abbrev S1000000 : Shape := ⟨1, ![1000000]⟩
abbrev S_ : Shape := ⟨0, ![]⟩
abbrev S100000x1 : Shape := ⟨2, ![100000, 1]⟩
abbrev S100000x65 : Shape := ⟨2, ![100000, 65]⟩
abbrev S1000000x1 : Shape := ⟨2, ![1000000, 1]⟩
abbrev S1000000x65 : Shape := ⟨2, ![1000000, 65]⟩
abbrev S1x64 : Shape := ⟨2, ![1, 64]⟩
abbrev S5000x64 : Shape := ⟨2, ![5000, 64]⟩
abbrev S1000000x64 : Shape := ⟨2, ![1000000, 64]⟩
abbrev S128x64 : Shape := ⟨2, ![128, 64]⟩
abbrev S128 : Shape := ⟨1, ![128]⟩
abbrev S1x128 : Shape := ⟨2, ![1, 128]⟩
abbrev S100000x128 : Shape := ⟨2, ![100000, 128]⟩
abbrev S5000x128 : Shape := ⟨2, ![5000, 128]⟩
abbrev S64x128 : Shape := ⟨2, ![64, 128]⟩
abbrev S100000x2 : Shape := ⟨2, ![100000, 2]⟩

abbrev nBuf : Space → Nat
  | .hbm => 64
  | .vmem => 18
  | .smem => 0
  | _ => 0

abbrev bufTy : (tb : Table) → Fin (tcTables nBuf tb) → BufTy
  | .hbm, ⟨0, _⟩ => ⟨S100000x64, .f32⟩
  | .hbm, ⟨1, _⟩ => ⟨S2x1000000, .i32⟩
  | .hbm, ⟨2, _⟩ => ⟨S64x64, .f32⟩
  | .hbm, ⟨3, _⟩ => ⟨S64x64, .f32⟩
  | .hbm, ⟨4, _⟩ => ⟨S64, .f32⟩
  | .hbm, ⟨5, _⟩ => ⟨S2x64, .f32⟩
  | .hbm, ⟨6, _⟩ => ⟨S2x64, .f32⟩
  | .hbm, ⟨7, _⟩ => ⟨S2, .f32⟩
  | .hbm, ⟨8, _⟩ => ⟨S1x1000000, .i32⟩
  | .hbm, ⟨9, _⟩ => ⟨S1000000, .i32⟩
  | .hbm, ⟨10, _⟩ => ⟨S1x1000000, .i32⟩
  | .hbm, ⟨11, _⟩ => ⟨S1000000, .i32⟩
  | .hbm, ⟨12, _⟩ => ⟨S_, .f32⟩
  | .hbm, ⟨13, _⟩ => ⟨S100000x1, .f32⟩
  | .hbm, ⟨14, _⟩ => ⟨S100000x65, .f32⟩
  | .hbm, ⟨15, _⟩ => ⟨S_, .i32⟩
  | .hbm, ⟨16, _⟩ => ⟨S1000000, .i32⟩
  | .hbm, ⟨17, _⟩ => ⟨S1000000, .i1⟩
  | .hbm, ⟨18, _⟩ => ⟨S_, .i32⟩
  | .hbm, ⟨19, _⟩ => ⟨S1000000, .i32⟩
  | .hbm, ⟨20, _⟩ => ⟨S1000000, .i32⟩
  | .hbm, ⟨21, _⟩ => ⟨S1000000, .i32⟩
  | .hbm, ⟨22, _⟩ => ⟨S1000000x1, .i32⟩
  | .hbm, ⟨23, _⟩ => ⟨S1000000x65, .f32⟩
  | .hbm, ⟨24, _⟩ => ⟨S_, .f32⟩
  | .hbm, ⟨25, _⟩ => ⟨S100000x65, .f32⟩
  | .hbm, ⟨26, _⟩ => ⟨S1000000x1, .i32⟩
  | .hbm, ⟨27, _⟩ => ⟨S100000x65, .f32⟩
  | .hbm, ⟨28, _⟩ => ⟨S100000x64, .f32⟩
  | .hbm, ⟨29, _⟩ => ⟨S100000x1, .f32⟩
  | .hbm, ⟨30, _⟩ => ⟨S_, .f32⟩
  | .hbm, ⟨31, _⟩ => ⟨S100000x1, .f32⟩
  | .hbm, ⟨32, _⟩ => ⟨S100000x1, .f32⟩
  | .hbm, ⟨33, _⟩ => ⟨S100000x64, .f32⟩
  | .hbm, ⟨34, _⟩ => ⟨S100000x64, .f32⟩
  | .hbm, ⟨35, _⟩ => ⟨S1x64, .f32⟩
  | .hbm, ⟨36, _⟩ => ⟨S100000x64, .f32⟩
  | .hbm, ⟨37, _⟩ => ⟨S_, .i32⟩
  | .hbm, ⟨38, _⟩ => ⟨S1000000, .i32⟩
  | .hbm, ⟨39, _⟩ => ⟨S1000000, .i1⟩
  | .hbm, ⟨40, _⟩ => ⟨S_, .i32⟩
  | .hbm, ⟨41, _⟩ => ⟨S1000000, .i32⟩
  | .hbm, ⟨42, _⟩ => ⟨S1000000, .i32⟩
  | .hbm, ⟨43, _⟩ => ⟨S1000000, .i32⟩
  | .hbm, ⟨44, _⟩ => ⟨S1000000x1, .i32⟩
  | .hbm, ⟨45, _⟩ => ⟨S1000000x64, .f32⟩
  | .hbm, ⟨46, _⟩ => ⟨S_, .f32⟩
  | .hbm, ⟨47, _⟩ => ⟨S100000x64, .f32⟩
  | .hbm, ⟨48, _⟩ => ⟨S1000000x1, .i32⟩
  | .hbm, ⟨49, _⟩ => ⟨S100000x64, .f32⟩
  | .hbm, ⟨50, _⟩ => ⟨S100000x64, .f32⟩
  | .hbm, ⟨51, _⟩ => ⟨S100000x64, .f32⟩
  | .hbm, ⟨52, _⟩ => ⟨S_, .i32⟩
  | .hbm, ⟨53, _⟩ => ⟨S_, .f32⟩
  | .hbm, ⟨54, _⟩ => ⟨S128x64, .f32⟩
  | .hbm, ⟨55, _⟩ => ⟨S_, .i32⟩
  | .hbm, ⟨56, _⟩ => ⟨S_, .f32⟩
  | .hbm, ⟨57, _⟩ => ⟨S128x64, .f32⟩
  | .hbm, ⟨58, _⟩ => ⟨S_, .i32⟩
  | .hbm, ⟨59, _⟩ => ⟨S_, .f32⟩
  | .hbm, ⟨60, _⟩ => ⟨S128, .f32⟩
  | .hbm, ⟨61, _⟩ => ⟨S1x128, .f32⟩
  | .hbm, ⟨62, _⟩ => ⟨S100000x128, .f32⟩
  | .hbm, ⟨63, _⟩ => ⟨S100000x2, .f32⟩
  | .local _ .vmem, ⟨0, _⟩ => ⟨S5000x64, .f32⟩
  | .local _ .vmem, ⟨1, _⟩ => ⟨S5000x64, .f32⟩
  | .local _ .vmem, ⟨2, _⟩ => ⟨S5000x64, .f32⟩
  | .local _ .vmem, ⟨3, _⟩ => ⟨S5000x64, .f32⟩
  | .local _ .vmem, ⟨4, _⟩ => ⟨S64x64, .f32⟩
  | .local _ .vmem, ⟨5, _⟩ => ⟨S64x64, .f32⟩
  | .local _ .vmem, ⟨6, _⟩ => ⟨S1x64, .f32⟩
  | .local _ .vmem, ⟨7, _⟩ => ⟨S5000x64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S5000x64, .f32⟩
  | .local _ .vmem, ⟨13, _⟩ => ⟨S128x64, .f32⟩
  | .local _ .vmem, ⟨14, _⟩ => ⟨S128x64, .f32⟩
  | .local _ .vmem, ⟨15, _⟩ => ⟨S1x128, .f32⟩
  | .local _ .vmem, ⟨16, _⟩ => ⟨S5000x128, .f32⟩
  | .local _ .vmem, ⟨17, _⟩ => ⟨S5000x128, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_c : Ref sig .tc := ⟨.hbm, 15, rfl⟩
abbrev main_v6 : Ref sig .tc := ⟨.hbm, 16, rfl⟩
abbrev main_v7 : Ref sig .tc := ⟨.hbm, 17, rfl⟩
abbrev main_c_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_1 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_2 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_c_3 : Ref sig .tc := ⟨.hbm, 37, rfl⟩
abbrev main_v24 : Ref sig .tc := ⟨.hbm, 38, rfl⟩
abbrev main_v25 : Ref sig .tc := ⟨.hbm, 39, rfl⟩
abbrev main_c_4 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_5 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_c_6 : Ref sig .tc := ⟨.hbm, 52, rfl⟩
abbrev main_call0_v0 : Ref sig .tc := ⟨.hbm, 53, rfl⟩
abbrev main_v36 : Ref sig .tc := ⟨.hbm, 54, rfl⟩
abbrev main_c_7 : Ref sig .tc := ⟨.hbm, 55, rfl⟩
abbrev main_call1_v0 : Ref sig .tc := ⟨.hbm, 56, rfl⟩
abbrev main_v37 : Ref sig .tc := ⟨.hbm, 57, rfl⟩
abbrev main_c_8 : Ref sig .tc := ⟨.hbm, 58, rfl⟩
abbrev main_call2_v0 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  bcast_S_S100000x1 : S_.BroadcastsInDim S100000x1 (![] : Fin 0 → Fin S100000x1.rank)
  concatenates_S100000x64_S100000x1_S100000x65_d1 : Shape.Concatenates [S100000x64, S100000x1] S100000x65 1
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S_S100000x65 : S_.BroadcastsInDim S100000x65 (![] : Fin 0 → Fin S100000x65.rank)
  slices_S100000x65_S100000x64_0_0 : S100000x65.Slices ![0, 0] S100000x64
  slices_S100000x65_S100000x1_0_64 : S100000x65.Slices ![0, 64] S100000x1
  bcast_S100000x1_S100000x64_0_1 : S100000x1.BroadcastsInDim S100000x64 (![0, 1] : Fin 2 → Fin S100000x64.rank)
  shapeCasts_S64_S1x64 : S64.ShapeCasts S1x64
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  transposes_S64x64_p1_0_S64x64 : S64x64.Transposes [1, 0] S64x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  bcast_S_S100000x64 : S_.BroadcastsInDim S100000x64 (![] : Fin 0 → Fin S100000x64.rank)
  pads_S2x64_S128x64_01260_000 : S2x64.Pads (![0, 0] : Fin 2 → Nat) ![126, 0] ![0, 0] S128x64
  h_S_ : 0 < S_.numel
  pads_S2_S128_01260 : S2.Pads (![0] : Fin 1 → Nat) ![126] ![0] S128
  shapeCasts_S128_S1x128 : S128.ShapeCasts S1x128
  inb_S128x64_S128x64_0_0 : ∀ a, (![0, 0] : Fin 2 → Nat) a + S128x64.size a ≤ S128x64.size a
  h_S128x64 : 0 < S128x64.numel
  shapeCasts_S128x64_S128x64 : S128x64.ShapeCasts S128x64
  transposes_S128x64_p1_0_S64x128 : S128x64.Transposes [1, 0] S64x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S5000x128_S5000x128_0_0 : ∀ a, (![0, 0] : Fin 2 → Nat) a + S5000x128.size a ≤ S5000x128.size a
  h_S5000x128 : 0 < S5000x128.numel
  slices_S100000x128_S100000x2_0_0 : S100000x128.Slices ![0, 0] S100000x2
  gather_S100000x65_S1000000x1_S1000000x65_1_0_n_n_0_1_165_wf : GatherDims.WF S100000x65 S1000000x1 S1000000x65 [1] [0] [] [0] [] 1 ![1, 65]
  scatter_S100000x65_S1000000x1_S1000000x65_1_0_0_1_wf : ScatterDims.WF S100000x65 S1000000x1 S1000000x65 [1] [0] [0] 1
  dot_S5000x64_S64x64_S5000x64_1_0_0_1_n_n_wf : DotDims.WF S5000x64 S64x64 S5000x64 [1] [0] [0] [1] [] []
  gather_S100000x64_S1000000x1_S1000000x64_1_0_n_n_0_1_164_wf : GatherDims.WF S100000x64 S1000000x1 S1000000x64 [1] [0] [] [0] [] 1 ![1, 64]
  scatter_S100000x64_S1000000x1_S1000000x64_1_0_0_1_wf : ScatterDims.WF S100000x64 S1000000x1 S1000000x64 [1] [0] [0] 1
  dot_S5000x64_S64x128_S5000x128_1_0_0_1_n_n_wf : DotDims.WF S5000x64 S64x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S100000x64.size a
  hwx0_1 : ∀ i : grid0.Coords, EltTy.bits .f32 = 32 ∨ (Rect.block (s := S100000x64) S5000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x64.size a ≤ S100000x64.size a
  hwx0_5 : ∀ i : grid0.Coords, EltTy.bits .f32 = 32 ∨ (Rect.block (s := S100000x64) S5000x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S100000x64.size a
  hwx1_1 : ∀ i : grid1.Coords, EltTy.bits .f32 = 32 ∨ (Rect.block (s := S100000x64) S5000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x64.size a ≤ S128x64.size a
  hwx1_2 : ∀ i : grid1.Coords, EltTy.bits .f32 = 32 ∨ (Rect.block (s := S128x64) S128x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x64.size a ≤ S128x64.size a
  hwx1_3 : ∀ i : grid1.Coords, EltTy.bits .f32 = 32 ∨ (Rect.block (s := S128x64) S128x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S100000x128.size a
  hwx1_5 : ∀ i : grid1.Coords, EltTy.bits .f32 = 32 ∨ (Rect.block (s := S100000x128) S5000x128.size (cc1_transform_5 i) (hinb1_5 i)).WholeWords (EltTy.packing .f32)

variable [Facts₀]

def gather_S100000x65_S1000000x1_S1000000x65_1_0_n_n_0_1_165 : GatherDims S100000x65 S1000000x1 S1000000x65 where
  offsetDims := [1]
  collapsedSliceDims := [0]
  operandBatchingDims := []
  startIndicesBatchingDims := []
  startIndexMap := [0]
  indexVectorDim := 1
  sliceSizes := ![1, 65]
  wf := gather_S100000x65_S1000000x1_S1000000x65_1_0_n_n_0_1_165_wf
def scatter_S100000x65_S1000000x1_S1000000x65_1_0_0_1 : ScatterDims S100000x65 S1000000x1 S1000000x65 where
  updateWindowDims := [1]
  insertedWindowDims := [0]
  scatterDimsToOperandDims := [0]
  indexVectorDim := 1
  wf := scatter_S100000x65_S1000000x1_S1000000x65_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def scatter_S100000x64_S1000000x1_S1000000x64_1_0_0_1 : ScatterDims S100000x64 S1000000x1 S1000000x64 where
  updateWindowDims := [1]
  insertedWindowDims := [0]
  scatterDimsToOperandDims := [0]
  indexVectorDim := 1
  wf := scatter_S100000x64_S1000000x1_S1000000x64_1_0_0_1_wf
def dot_S5000x64_S64x128_S5000x128_1_0_0_1_n_n : DotDims S5000x64 S64x128 S5000x128 where
  lhsContracting := [1]
  rhsContracting := [0]
  lhsNonContracting := [0]
  rhsNonContracting := [1]
  lhsBatch := []
  rhsBatch := []
  wf := dot_S5000x64_S64x128_S5000x128_1_0_0_1_n_n_wf

abbrev win0_0 : Pipeline.Window sig grid0 :=
  Pipeline.Window.ofSpec (Memref.whole main_v21) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v22) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v23) S5000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v35) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v23) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v36) S128x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v37) S128x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v39) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v40) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S100000x64 : Shape := ⟨2, ![100000, 64]⟩
abbrev S2x1000000 : Shape := ⟨2, ![2, 1000000]⟩
abbrev S64x64 : Shape := ⟨2, ![64, 64]⟩
abbrev S64 : Shape := ⟨1, ![64]⟩
abbrev S2x64 : Shape := ⟨2, ![2, 64]⟩
abbrev S2 : Shape := ⟨1, ![2]⟩
abbrev S1x1000000 : Shape := ⟨2, ![1, 1000000]⟩
abbrev S1000000 : Shape := ⟨1, ![1000000]⟩
abbrev S_ : Shape := ⟨0, ![]⟩
abbrev S1000000x1 : Shape := ⟨2, ![1000000, 1]⟩
abbrev S1000000x64 : Shape := ⟨2, ![1000000, 64]⟩
abbrev S100000 : Shape := ⟨1, ![100000]⟩
abbrev S100000x1 : Shape := ⟨2, ![100000, 1]⟩
abbrev S1x64 : Shape := ⟨2, ![1, 64]⟩
abbrev S64x2 : Shape := ⟨2, ![64, 2]⟩
abbrev S100000x2 : Shape := ⟨2, ![100000, 2]⟩
abbrev S1x2 : Shape := ⟨2, ![1, 2]⟩

abbrev nBuf : Space → Nat
  | .hbm => 81
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1000000, .i32⟩
  | .hbm, ⟨2, _⟩ => ⟨S64x64, .f32⟩
  | .hbm, ⟨3, _⟩ => ⟨S64x64, .f32⟩
  | .hbm, ⟨4, _⟩ => ⟨S64, .f32⟩
  | .hbm, ⟨5, _⟩ => ⟨S2x64, .f32⟩
  | .hbm, ⟨6, _⟩ => ⟨S2x64, .f32⟩
  | .hbm, ⟨7, _⟩ => ⟨S2, .f32⟩
  | .hbm, ⟨8, _⟩ => ⟨S1x1000000, .i32⟩
  | .hbm, ⟨9, _⟩ => ⟨S1000000, .i32⟩
  | .hbm, ⟨10, _⟩ => ⟨S1x1000000, .i32⟩
  | .hbm, ⟨11, _⟩ => ⟨S1000000, .i32⟩
  | .hbm, ⟨12, _⟩ => ⟨S_, .i32⟩
  | .hbm, ⟨13, _⟩ => ⟨S1000000, .i32⟩
  | .hbm, ⟨14, _⟩ => ⟨S1000000, .i1⟩
  | .hbm, ⟨15, _⟩ => ⟨S_, .i32⟩
  | .hbm, ⟨16, _⟩ => ⟨S1000000, .i32⟩
  | .hbm, ⟨17, _⟩ => ⟨S1000000, .i32⟩
  | .hbm, ⟨18, _⟩ => ⟨S1000000, .i32⟩
  | .hbm, ⟨19, _⟩ => ⟨S1000000x1, .i32⟩
  | .hbm, ⟨20, _⟩ => ⟨S1000000x64, .f32⟩
  | .hbm, ⟨21, _⟩ => ⟨S_, .f32⟩
  | .hbm, ⟨22, _⟩ => ⟨S100000x64, .f32⟩
  | .hbm, ⟨23, _⟩ => ⟨S1000000x1, .i32⟩
  | .hbm, ⟨24, _⟩ => ⟨S100000x64, .f32⟩
  | .hbm, ⟨25, _⟩ => ⟨S_, .f32⟩
  | .hbm, ⟨26, _⟩ => ⟨S1000000, .f32⟩
  | .hbm, ⟨27, _⟩ => ⟨S_, .f32⟩
  | .hbm, ⟨28, _⟩ => ⟨S100000, .f32⟩
  | .hbm, ⟨29, _⟩ => ⟨S1000000x1, .i32⟩
  | .hbm, ⟨30, _⟩ => ⟨S100000, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S100000x1, .f32⟩
  | .hbm, ⟨35, _⟩ => ⟨S100000x64, .f32⟩
  | .hbm, ⟨36, _⟩ => ⟨S100000x64, .f32⟩
  | .hbm, ⟨37, _⟩ => ⟨S64x64, .f32⟩
  | .hbm, ⟨38, _⟩ => ⟨S100000x64, .f32⟩
  | .hbm, ⟨39, _⟩ => ⟨S64x64, .f32⟩
  | .hbm, ⟨40, _⟩ => ⟨S100000x64, .f32⟩
  | .hbm, ⟨41, _⟩ => ⟨S100000x64, .f32⟩
  | .hbm, ⟨42, _⟩ => ⟨S1x64, .f32⟩
  | .hbm, ⟨43, _⟩ => ⟨S100000x64, .f32⟩
  | .hbm, ⟨44, _⟩ => ⟨S100000x64, .f32⟩
  | .hbm, ⟨45, _⟩ => ⟨S_, .f32⟩
  | .hbm, ⟨46, _⟩ => ⟨S100000x64, .f32⟩
  | .hbm, ⟨47, _⟩ => ⟨S100000x64, .f32⟩
  | .hbm, ⟨48, _⟩ => ⟨S_, .i32⟩
  | .hbm, ⟨49, _⟩ => ⟨S1000000, .i32⟩
  | .hbm, ⟨50, _⟩ => ⟨S1000000, .i1⟩
  | .hbm, ⟨51, _⟩ => ⟨S_, .i32⟩
  | .hbm, ⟨52, _⟩ => ⟨S1000000, .i32⟩
  | .hbm, ⟨53, _⟩ => ⟨S1000000, .i32⟩
  | .hbm, ⟨54, _⟩ => ⟨S1000000, .i32⟩
  | .hbm, ⟨55, _⟩ => ⟨S1000000x1, .i32⟩
  | .hbm, ⟨56, _⟩ => ⟨S1000000x64, .f32⟩
  | .hbm, ⟨57, _⟩ => ⟨S_, .f32⟩
  | .hbm, ⟨58, _⟩ => ⟨S100000x64, .f32⟩
  | .hbm, ⟨59, _⟩ => ⟨S1000000x1, .i32⟩
  | .hbm, ⟨60, _⟩ => ⟨S100000x64, .f32⟩
  | .hbm, ⟨61, _⟩ => ⟨S_, .f32⟩
  | .hbm, ⟨62, _⟩ => ⟨S1000000, .f32⟩
  | .hbm, ⟨63, _⟩ => ⟨S_, .f32⟩
  | .hbm, ⟨64, _⟩ => ⟨S100000, .f32⟩
  | .hbm, ⟨65, _⟩ => ⟨S1000000x1, .i32⟩
  | .hbm, ⟨66, _⟩ => ⟨S100000, .f32⟩
  | .hbm, ⟨67, _⟩ => ⟨S_, .f32⟩
  | .hbm, ⟨68, _⟩ => ⟨S100000, .f32⟩
  | .hbm, ⟨69, _⟩ => ⟨S100000, .f32⟩
  | .hbm, ⟨70, _⟩ => ⟨S100000x1, .f32⟩
  | .hbm, ⟨71, _⟩ => ⟨S100000x64, .f32⟩
  | .hbm, ⟨72, _⟩ => ⟨S100000x64, .f32⟩
  | .hbm, ⟨73, _⟩ => ⟨S64x2, .f32⟩
  | .hbm, ⟨74, _⟩ => ⟨S100000x2, .f32⟩
  | .hbm, ⟨75, _⟩ => ⟨S64x2, .f32⟩
  | .hbm, ⟨76, _⟩ => ⟨S100000x2, .f32⟩
  | .hbm, ⟨77, _⟩ => ⟨S100000x2, .f32⟩
  | .hbm, ⟨78, _⟩ => ⟨S1x2, .f32⟩
  | .hbm, ⟨79, _⟩ => ⟨S100000x2, .f32⟩
  | .hbm, ⟨80, _⟩ => ⟨S100000x2, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_call0_cst : Ref sig .tc := ⟨.hbm, 45, rfl⟩
abbrev main_call0_v0 : Ref sig .tc := ⟨.hbm, 46, rfl⟩
abbrev main_v31 : Ref sig .tc := ⟨.hbm, 47, rfl⟩
abbrev main_c_4 : Ref sig .tc := ⟨.hbm, 48, rfl⟩
abbrev main_v32 : Ref sig .tc := ⟨.hbm, 49, rfl⟩
abbrev main_v33 : Ref sig .tc := ⟨.hbm, 50, rfl⟩
abbrev main_c_5 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_6 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_7 : Ref sig .tc := ⟨.hbm, 61, rfl⟩
abbrev main_v42 : Ref sig .tc := ⟨.hbm, 62, rfl⟩
abbrev main_cst_8 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_cst_9 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩

abbrev nD : Nat := 1
abbrev τ : Topo := Topo.v7x

variable {F : FTy → Type} [FloatOps F]

class Facts₀ : Prop where
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  transposes_S64x64_S64x64_1_0 : S64x64.Transposes [1, 0] S64x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  transposes_S2x64_S64x2_1_0 : S2x64.Transposes [1, 0] S64x2
  bcast_S2_S1x2_1 : S2.BroadcastsInDim S1x2 (![1] : Fin 1 → Fin S1x2.rank)
  bcast_S1x2_S100000x2_0_1 : S1x2.BroadcastsInDim S100000x2 (![0, 1] : Fin 2 → Fin S100000x2.rank)
  gather_S100000x64_S1000000x1_S1000000x64_1_0_n_n_0_1_164_wf : GatherDims.WF S100000x64 S1000000x1 S1000000x64 [1] [0] [] [0] [] 1 ![1, 64]
  scatter_S100000x64_S1000000x1_S1000000x64_1_0_0_1_wf : ScatterDims.WF S100000x64 S1000000x1 S1000000x64 [1] [0] [0] 1
  scatter_S100000_S1000000x1_S1000000_n_0_0_1_wf : ScatterDims.WF S100000 S1000000x1 S1000000 [] [0] [0] 1
  dot_S100000x64_S64x64_S100000x64_1_0_0_1_n_n_wf : DotDims.WF S100000x64 S64x64 S100000x64 [1] [0] [0] [1] [] []
  dot_S100000x64_S64x2_S100000x2_1_0_0_1_n_n_wf : DotDims.WF S100000x64 S64x2 S100000x2 [1] [0] [0] [1] [] []

variable [Facts₀]

def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def scatter_S100000x64_S1000000x1_S1000000x64_1_0_0_1 : ScatterDims S100000x64 S1000000x1 S1000000x64 where
  updateWindowDims := [1]
  insertedWindowDims := [0]
  scatterDimsToOperandDims := [0]
  indexVectorDim := 1
  wf := scatter_S100000x64_S1000000x1_S1000000x64_1_0_0_1_wf
def scatter_S100000_S1000000x1_S1000000_n_0_0_1 : ScatterDims S100000 S1000000x1 S1000000 where
  updateWindowDims := []
  insertedWindowDims := [0]
  scatterDimsToOperandDims := [0]
  indexVectorDim := 1
  wf := scatter_S100000_S1000000x1_S1000000_n_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S100000x64_S64x2_S100000x2_1_0_0_1_n_n : DotDims S100000x64 S64x2 S100000x2 where
  lhsContracting := [1]
  rhsContracting := [0]
  lhsNonContracting := [0]
  rhsNonContracting := [1]
  lhsBatch := []
  rhsBatch := []
  wf := dot_S100000x64_S64x2_S100000x2_1_0_0_1_n_n_wf

class Facts : Prop extends Facts₀ where

variable [Facts]
-- ==== Proof.KernelRun.lean ====
/-
  The idealized kernel's run with its result array named.

  The program is eleven segments: stretches of host operations and two pipelined regions. The contents of the
  TensorCore's buffers at each boundary between segments are a fold from the launch memory: a stretch applies its
  operations, a region replaces its arrays by what its write-backs leave. Every weakly fair execution ends with every
  unscoped buffer at the last boundary's contents; the frame reads the eight argument arrays off that fact, and here
  the result array is read off it too, so that the run's post names the result as the last boundary's contents at
  the result's buffer. What those contents are, as a function of the arguments, is the subject of the other modules.
-/
import proofs.«134031_j31344671326737_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault, with the result array at the last
    boundary's contents and the argument arrays as launched. -/
theorem run : θ_run defs (onTc (τ := τ) (main (F := F))) ⟨m, fun _ => 0, ρ⟩ (fun r => ∀ c : Dev nD,
      r.2.mem ((c.tc : Thread nD τ).loc main_v41) = W11 m ρ c (Proc.devRef .tc main_v41)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h c =>
      ⟨h c _ (mem_uc main_v41 (by decide)),
       (h c _ (mem_uc main_arg0 (by decide))).trans (W11_main_arg0 m ρ c),
       (h c _ (mem_uc main_arg1 (by decide))).trans (W11_main_arg1 m ρ c),
       (h c _ (mem_uc main_arg2 (by decide))).trans (W11_main_arg2 m ρ c),
       (h c _ (mem_uc main_arg3 (by decide))).trans (W11_main_arg3 m ρ c),
       (h c _ (mem_uc main_arg4 (by decide))).trans (W11_main_arg4 m ρ c),
       (h c _ (mem_uc main_arg5 (by decide))).trans (W11_main_arg5 m ρ c),
       (h c _ (mem_uc main_arg6 (by decide))).trans (W11_main_arg6 m ρ c),
       (h c _ (mem_uc main_arg7 (by decide))).trans (W11_main_arg7 m ρ c)⟩)

end Cert.KernelIdeal.RunValue

end
-- ==== Proof.LibGatherScatter.lean ====
/-
  Rows gathered and rows accumulated through a column of indices, read at an index.

  A column of `R` integer words, held as an `R × 1` array, names one row of an `N`-row array for each of `R` positions.
  Gathering rows through it reads, at position `e`, row `clamp(word e)` of the operand: the word is read as a signed
  integer and clamped into `[0, N − 1]`. Accumulating rows through it adds the update's row `e` into row `word e` of
  the operand when the word, read signed, lies in `[0, N)`, and drops it otherwise (no clamping). At the exact values the
  accumulated array holds, at `(n, q)`, the operand's entry plus the sum of the updates' entries `(e, q)` over the
  positions `e` whose word names row `n`. The same for a length-`N` vector gathered or accumulated through the column.
  For any extents; the printed records with these lists are these by reflexivity.
-/
import Idealize.ShloMosaic.PureOps.Ideal
import Idealize.ShloMosaic.Lib.ValueIdx
import Idealize.ShloMosaic.Lib.Pipeline.Value

noncomputable section

open scoped BigOperators

namespace Cert.Lib.GatherScatter

open Idealize.ShloMosaic Idealize.ShloMosaic.ValueIdx

variable {N C R w : Nat}

/-- The word the column holds for position `e`, read as a signed integer. -/
def colInt (idx : IVec ⟨2, ![R, 1]⟩ w) (e : Fin R) : Int := (idx (ix2 e (0 : Fin 1))).toInt

/-- The row a gather reads for position `e`: the word read signed and clamped into `[0, N − 1]`. -/
def gatherRow (hN : 0 < N) (idx : IVec ⟨2, ![R, 1]⟩ w) (e : Fin R) : Fin N :=
  ⟨min (colInt idx e).toNat (N - 1), by omega⟩

/-- The row an accumulation lands on for position `e`: the word read signed when it lies in `[0, N)`, none otherwise. -/
def scatterRow (N : Nat) (idx : IVec ⟨2, ![R, 1]⟩ w) (e : Fin R) : Option (Fin N) :=
  if h : 0 ≤ colInt idx e ∧ colInt idx e < (N : Int) then some ⟨(colInt idx e).toNat, by omega⟩ else none

/-- A position whose word names row `n` for the accumulation names the same row for a gather. -/
theorem gatherRow_of_scatterRow (hN : 0 < N) (idx : IVec ⟨2, ![R, 1]⟩ w) (e : Fin R) (n : Fin N)
    (h : scatterRow N idx e = some n) : gatherRow hN idx e = n := by
  unfold scatterRow at h
  split at h
  · rename_i hr
    have := Option.some.inj h
    subst this
    refine Fin.ext ?_
    show min (colInt idx e).toNat (N - 1) = (colInt idx e).toNat
    omega
  · exact absurd h (by simp)

/-- An axis is kept exactly when it is not among the removed ones. -/
theorem mem_kept {s : Shape} (axes : List (Fin s.rank)) (a : Fin s.rank) : a ∈ s.kept axes ↔ a ∉ axes := by
  simp [Shape.kept, List.mem_filter, List.mem_finRange]

/-- Two rank-2 indices are equal exactly when their coordinates are. -/
theorem ix2_inj {n0 n1 : Nat} (a a' : Fin n0) (b b' : Fin n1) : ix2 a b = ix2 a' b' ↔ a = a' ∧ b = b' :=
  ⟨fun h => ⟨congrFun h 0, congrFun h 1⟩, fun ⟨h1, h2⟩ => by rw [h1, h2]⟩

/-- A length-`R` vector laid out as an `R × 1` column reads, at `(e, ·)`, the vector at `e`. -/
theorem column_apply {α : Type} (v : (⟨1, ![R]⟩ : Shape).Idx → α)
    (h : (⟨1, ![R]⟩ : Shape).BroadcastsInDim ⟨2, ![R, 1]⟩ ![0]) (e : Fin R) (u : Fin 1) :
    broadcastInDim ⟨2, ![R, 1]⟩ ![0] h v (ix2 e u) = v (ix1 e) := by
  refine broadcastInDim_apply _ h v (ix2 e u) (ix1 e) fun ax => ?_
  match ax with
  | ⟨0, _⟩ =>
    show e.val = if R = 1 then 0 else e.val
    split
    · have := e.isLt; omega
    · rfl

/-! ## Gathering rows -/

/-- The dimension numbers of a row gather `[N, C]` through an `R × 1` column, result `[R, C]`. -/
abbrev rowGatherDims (N C R : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- The row gather at `(e, q)`: the operand at `(row e, q)`. -/
theorem rowGather_apply {α : Type} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (e : Fin R) (q : Fin C) :
    Host.gather (rowGatherDims N C R wf) x idx (ix2 e q) = x (ix2 (gatherRow hN idx e) q) := by
  unfold Host.gather
  congr 1
  funext a
  refine Fin.ext ?_
  match a with
  | ⟨0, _⟩ =>
    show (rowGatherDims N C R wf).start (ix2 e q) idx 0 + (rowGatherDims N C R wf).batchCoord (ix2 e q) 0
      + (rowGatherDims N C R wf).offCoord (ix2 e q) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N C R wf).startIndexMap from List.mem_singleton.mpr rfl)]
    have hsi : (rowGatherDims N C R wf).siIdx (ix2 e q) ⟨List.idxOf (0 : Fin 2) (rowGatherDims N C R wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowGatherDims N C R wf).start (ix2 e q) idx 1 + (rowGatherDims N C R wf).batchCoord (ix2 e q) 1
      + (rowGatherDims N C R wf).offCoord (ix2 e q) 1 = q.val
    rw [GatherDims.batchCoord_eq_zero _ _ _ List.not_mem_nil]
    have hs : (rowGatherDims N C R wf).start (ix2 e q) idx 1 = 0 := by
      unfold GatherDims.start
      rw [dif_neg (show ¬ (1 : Fin 2) ∈ (rowGatherDims N C R wf).startIndexMap from
        fun h => absurd (show (1 : Fin 2) = 0 from List.mem_singleton.mp h) (by decide))]
    rw [hs]
    simp only [Nat.add_zero, Nat.zero_add]
    rfl

/-! ## Gathering entries of a vector -/

/-- The dimension numbers of a gather from a length-`N` vector through an `R × 1` column, result `[R]`. -/
abbrev vecGatherDims (N R : Nat)
    (wf : GatherDims.WF ⟨1, ![N]⟩ ⟨2, ![R, 1]⟩ ⟨1, ![R]⟩ [] [0] [] [0] [] 1 ![1]) :
    GatherDims ⟨1, ![N]⟩ ⟨2, ![R, 1]⟩ ⟨1, ![R]⟩ where
  offsetDims := []
  collapsedSliceDims := [0]
  operandBatchingDims := []
  startIndicesBatchingDims := []
  startIndexMap := [0]
  indexVectorDim := 1
  sliceSizes := ![1]
  wf := wf

/-- The vector gather at `e`: the operand at `row e`. -/
theorem vecGather_apply {α : Type} (hN : 0 < N)
    (wf : GatherDims.WF ⟨1, ![N]⟩ ⟨2, ![R, 1]⟩ ⟨1, ![R]⟩ [] [0] [] [0] [] 1 ![1])
    (x : (⟨1, ![N]⟩ : Shape).Idx → α) (idx : IVec ⟨2, ![R, 1]⟩ w) (e : Fin R) :
    Host.gather (vecGatherDims N R wf) x idx (ix1 e) = x (ix1 (gatherRow hN idx e)) := by
  unfold Host.gather
  congr 1
  funext a
  refine Fin.ext ?_
  match a with
  | ⟨0, _⟩ =>
    show (vecGatherDims N R wf).start (ix1 e) idx 0 + (vecGatherDims N R wf).batchCoord (ix1 e) 0
      + (vecGatherDims N R wf).offCoord (ix1 e) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 1) ∈ (vecGatherDims N R wf).startIndexMap from List.mem_singleton.mpr rfl)]
    have hsi : (vecGatherDims N R wf).siIdx (ix1 e) ⟨List.idxOf (0 : Fin 1) (vecGatherDims N R wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl

/-! ## Accumulating rows -/

/-- The dimension numbers of a row accumulation into `[N, C]` through an `R × 1` column, updates `[R, C]`. -/
abbrev rowScatterDims (N C R : Nat)
    (wf : ScatterDims.WF ⟨2, ![N, C]⟩ ⟨2, ![R, 1]⟩ ⟨2, ![R, C]⟩ [1] [0] [0] 1) :
    ScatterDims ⟨2, ![N, C]⟩ ⟨2, ![R, 1]⟩ ⟨2, ![R, C]⟩ where
  updateWindowDims := [1]
  insertedWindowDims := [0]
  scatterDimsToOperandDims := [0]
  indexVectorDim := 1
  wf := wf

section RowScatter
variable (wf : ScatterDims.WF ⟨2, ![N, C]⟩ ⟨2, ![R, 1]⟩ ⟨2, ![R, C]⟩ [1] [0] [0] 1)

theorem rowScatter_start0 (idx : IVec ⟨2, ![R, 1]⟩ w) (e : Fin R) (q : Fin C) :
    (rowScatterDims N C R wf).start (ix2 e q) idx 0 = colInt idx e := by
  unfold ScatterDims.start
  rw [dif_pos (show (0 : Fin 2) ∈ (rowScatterDims N C R wf).scatterDimsToOperandDims from List.mem_singleton.mpr rfl)]
  have hsi : (rowScatterDims N C R wf).siIdx (ix2 e q) ⟨List.idxOf (0 : Fin 2) (rowScatterDims N C R wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

theorem rowScatter_start1 (idx : IVec ⟨2, ![R, 1]⟩ w) (e : Fin R) (q : Fin C) :
    (rowScatterDims N C R wf).start (ix2 e q) idx 1 = 0 := by
  unfold ScatterDims.start
  rw [dif_neg (show ¬ (1 : Fin 2) ∈ (rowScatterDims N C R wf).scatterDimsToOperandDims from
    fun h => absurd (show (1 : Fin 2) = 0 from List.mem_singleton.mp h) (by decide))]

theorem rowScatter_window0 (e : Fin R) (q : Fin C) : (rowScatterDims N C R wf).window (ix2 e q) 0 = 0 := by
  unfold ScatterDims.window
  rw [dif_neg (show ¬ (0 : Fin 2) ∈ (rowScatterDims N C R wf).sKept from
    fun h => (mem_kept _ _).mp h (List.mem_singleton.mpr rfl))]

theorem rowScatter_window1 (e : Fin R) (q : Fin C) : (rowScatterDims N C R wf).window (ix2 e q) 1 = q.val := by
  unfold ScatterDims.window
  rw [dif_pos (show (1 : Fin 2) ∈ (rowScatterDims N C R wf).sKept from
    (mem_kept _ _).mpr fun h => absurd (show (1 : Fin 2) = 0 from List.mem_singleton.mp h) (by decide))]
  rfl

/-- Where the update's entry `(e, q)` lands: at `(row e, q)` when the word names a row, nowhere otherwise. -/
theorem rowScatter_resultIdx (idx : IVec ⟨2, ![R, 1]⟩ w) (e : Fin R) (q : Fin C) :
    (rowScatterDims N C R wf).resultIdx? (ix2 e q) idx = (scatterRow N idx e).map fun n => ix2 n q := by
  unfold ScatterDims.resultIdx? scatterRow
  by_cases h : 0 ≤ colInt idx e ∧ colInt idx e < (N : Int)
  · have hall : ∀ a, 0 ≤ (rowScatterDims N C R wf).start (ix2 e q) idx a + (rowScatterDims N C R wf).window (ix2 e q) a
        ∧ (rowScatterDims N C R wf).start (ix2 e q) idx a + (rowScatterDims N C R wf).window (ix2 e q) a
          < ((⟨2, ![N, C]⟩ : Shape).size a : Int) := by
      intro a
      match a with
      | ⟨0, _⟩ =>
        rw [show (⟨0, _⟩ : Fin 2) = 0 from rfl, rowScatter_start0, rowScatter_window0]
        show 0 ≤ colInt idx e + ((0 : Nat) : Int) ∧ colInt idx e + ((0 : Nat) : Int) < (N : Int)
        omega
      | ⟨1, _⟩ =>
        rw [show (⟨1, _⟩ : Fin 2) = 1 from rfl, rowScatter_start1, rowScatter_window1]
        show 0 ≤ (0 : Int) + (q.val : Int) ∧ (0 : Int) + (q.val : Int) < (C : Int)
        have := q.isLt
        omega
    rw [dif_pos hall, dif_pos h, Option.map_some]
    congr 1
    funext a
    refine Fin.ext ?_
    match a with
    | ⟨0, _⟩ =>
      show ((rowScatterDims N C R wf).start (ix2 e q) idx 0 + (rowScatterDims N C R wf).window (ix2 e q) 0).toNat = (colInt idx e).toNat
      rw [rowScatter_start0, rowScatter_window0]
      simp
    | ⟨1, _⟩ =>
      show ((rowScatterDims N C R wf).start (ix2 e q) idx 1 + (rowScatterDims N C R wf).window (ix2 e q) 1).toNat = q.val
      rw [rowScatter_start1, rowScatter_window1]
      simp
  · rw [dif_neg h, Option.map_none, dif_neg]
    intro hall
    apply h
    have h0 := hall 0
    rw [rowScatter_start0, rowScatter_window0] at h0
    have h0' : 0 ≤ colInt idx e + ((0 : Nat) : Int) ∧ colInt idx e + ((0 : Nat) : Int) < (N : Int) := h0
    omega

/-- THE ACCUMULATION AT `(n, q)`, at the exact values: the operand's entry plus the updates' entries `(e, q)` over
    the positions `e` whose word names row `n`. -/
theorem rowScatterAdd_apply {φ : FTy} (x : FVec Ideal ⟨2, ![N, C]⟩ φ) (idx : IVec ⟨2, ![R, 1]⟩ w)
    (upd : FVec Ideal ⟨2, ![R, C]⟩ φ) (n : Fin N) (q : Fin C) :
    Host.scatterAdd (rowScatterDims N C R wf) x idx upd (ix2 n q)
      = x (ix2 n q) + ∑ e ∈ Finset.univ.filter (fun e => scatterRow N idx e = some n), upd (ix2 e q) := by
  show Ideal.hostScatterAdd (rowScatterDims N C R wf) x idx upd (ix2 n q) = _
  unfold Ideal.hostScatterAdd
  congr 1
  rw [Finset.sum_filter, sum_idx2, Finset.sum_filter]
  refine Finset.sum_congr rfl fun e _ => ?_
  simp only [rowScatter_resultIdx]
  cases hsr : scatterRow N idx e with
  | none => simp
  | some n' =>
    simp only [Option.map_some, Option.some.injEq, ix2_inj]
    by_cases hn : n' = n
    · subst hn
      simp only [true_and, if_true]
      exact (Finset.sum_ite_eq' Finset.univ q fun c => upd (ix2 e c)).trans (if_pos (Finset.mem_univ q))
    · simp only [hn, false_and, if_false, Finset.sum_const_zero]

end RowScatter

/-! ## Accumulating entries of a vector -/

/-- The dimension numbers of an accumulation into a length-`N` vector through an `R × 1` column, updates `[R]`. -/
abbrev vecScatterDims (N R : Nat)
    (wf : ScatterDims.WF ⟨1, ![N]⟩ ⟨2, ![R, 1]⟩ ⟨1, ![R]⟩ [] [0] [0] 1) :
    ScatterDims ⟨1, ![N]⟩ ⟨2, ![R, 1]⟩ ⟨1, ![R]⟩ where
  updateWindowDims := []
  insertedWindowDims := [0]
  scatterDimsToOperandDims := [0]
  indexVectorDim := 1
  wf := wf

end Cert.Lib.GatherScatter

end
-- ==== Proof.LibVecScatter.lean ====
/-
  Entries accumulated into a vector through a column of indices, read at an index.

  A column of R integer words, held as an R × 1 array, names one entry of a length-N vector for each of R positions.
  Accumulating a length-R vector of updates through it adds update e into entry word e of the operand when the word,
  read signed, lies in [0, N), and drops it otherwise. At the exact values the accumulated vector holds, at n, the
  operand's entry plus the sum of the updates over the positions whose word names n. For any extents; a printed
  record with these lists is this one by reflexivity. Also: a sum over a rank-1 index set is the sum over its one
  coordinate.
-/
import proofs.«134031_j31344671326737_2_alg».proof.Proof.LibGatherScatter

noncomputable section

open scoped BigOperators

namespace Cert.Lib.GatherScatter

open Idealize.ShloMosaic Idealize.ShloMosaic.ValueIdx

variable {N R w : Nat}

/-- A rank-1 index set is its one coordinate's range … -/
def idxEquiv1 {n : Nat} : (⟨1, ![n]⟩ : Shape).Idx ≃ Fin n where
  toFun i := i 0
  invFun e := ix1 e
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ e : Fin n, f (ix1 e) := by
  rw [← Equiv.sum_comp (idxEquiv1 (n := n)).symm f]
  rfl

/-- Two rank-1 indices are equal exactly when their coordinates are. -/
theorem ix1_inj {n : Nat} (a a' : Fin n) : ix1 a = ix1 a' ↔ a = a' :=
  ⟨fun h => congrFun h 0, fun h => by rw [h]⟩

section VecScatter
variable (wf : ScatterDims.WF ⟨1, ![N]⟩ ⟨2, ![R, 1]⟩ ⟨1, ![R]⟩ [] [0] [0] 1)

theorem vecScatter_start0 (idx : IVec ⟨2, ![R, 1]⟩ w) (e : Fin R) :
    (vecScatterDims N R wf).start (ix1 e) idx 0 = colInt idx e := by
  unfold ScatterDims.start
  rw [dif_pos (show (0 : Fin 1) ∈ (vecScatterDims N R wf).scatterDimsToOperandDims from List.mem_singleton.mpr rfl)]
  have hsi : (vecScatterDims N R wf).siIdx (ix1 e) ⟨List.idxOf (0 : Fin 1) (vecScatterDims N R wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

theorem vecScatter_window0 (e : Fin R) : (vecScatterDims N R wf).window (ix1 e) 0 = 0 := by
  unfold ScatterDims.window
  rw [dif_neg (show ¬ (0 : Fin 1) ∈ (vecScatterDims N R wf).sKept from
    fun h => (mem_kept _ _).mp h (List.mem_singleton.mpr rfl))]

/-- Where update e lands: at the entry its word names, nowhere when the word names none. -/
theorem vecScatter_resultIdx (idx : IVec ⟨2, ![R, 1]⟩ w) (e : Fin R) :
    (vecScatterDims N R wf).resultIdx? (ix1 e) idx = (scatterRow N idx e).map fun n => ix1 n := by
  unfold ScatterDims.resultIdx? scatterRow
  by_cases h : 0 ≤ colInt idx e ∧ colInt idx e < (N : Int)
  · have hall : ∀ a, 0 ≤ (vecScatterDims N R wf).start (ix1 e) idx a + (vecScatterDims N R wf).window (ix1 e) a
        ∧ (vecScatterDims N R wf).start (ix1 e) idx a + (vecScatterDims N R wf).window (ix1 e) a
          < ((⟨1, ![N]⟩ : Shape).size a : Int) := by
      intro a
      match a with
      | ⟨0, _⟩ =>
        rw [show (⟨0, _⟩ : Fin 1) = 0 from rfl, vecScatter_start0, vecScatter_window0]
        show 0 ≤ colInt idx e + ((0 : Nat) : Int) ∧ colInt idx e + ((0 : Nat) : Int) < (N : Int)
        omega
    rw [dif_pos hall, dif_pos h, Option.map_some]
    congr 1
    funext a
    refine Fin.ext ?_
    match a with
    | ⟨0, _⟩ =>
      show ((vecScatterDims N R wf).start (ix1 e) idx 0 + (vecScatterDims N R wf).window (ix1 e) 0).toNat = (colInt idx e).toNat
      rw [vecScatter_start0, vecScatter_window0]
      simp
  · rw [dif_neg h, Option.map_none, dif_neg]
    intro hall
    apply h
    have h0 := hall 0
    rw [vecScatter_start0, vecScatter_window0] at h0
    have h0' : 0 ≤ colInt idx e + ((0 : Nat) : Int) ∧ colInt idx e + ((0 : Nat) : Int) < (N : Int) := h0
    omega

/-- THE ACCUMULATION AT n, at the exact values: the operand's entry plus the updates over the positions whose word
    names n. -/
theorem vecScatterAdd_apply {φ : FTy} (x : FVec Ideal ⟨1, ![N]⟩ φ) (idx : IVec ⟨2, ![R, 1]⟩ w)
    (upd : FVec Ideal ⟨1, ![R]⟩ φ) (n : Fin N) :
    Host.scatterAdd (vecScatterDims N R wf) x idx upd (ix1 n)
      = x (ix1 n) + ∑ e ∈ Finset.univ.filter (fun e => scatterRow N idx e = some n), upd (ix1 e) := by
  show Ideal.hostScatterAdd (vecScatterDims N R wf) x idx upd (ix1 n) = _
  unfold Ideal.hostScatterAdd
  congr 1
  rw [Finset.sum_filter, sum_idx1, Finset.sum_filter]
  refine Finset.sum_congr rfl fun e _ => ?_
  simp only [vecScatter_resultIdx]
  cases hsr : scatterRow N idx e with
  | none => simp
  | some n' =>
    simp only [Option.map_some, Option.some.injEq, ix1_inj]

end VecScatter

end Cert.Lib.GatherScatter

end
-- ==== Proof.LibOnesColumn.lean ====
/-
  Features and degree accumulated in one pass through an appended column.

  An N × C array of features is given one more column holding the same value a in every row (C1 = C + 1 columns). Rows
  of the extended array are gathered through an R × 1 column of source words and accumulated through an R × 1 column
  of destination words into an N × C1 operand. Cut back along the columns, the first C columns of the result are the
  accumulation of the gathered rows of the features alone, and the last column is the accumulation, into a
  length-N vector, of a length-R vector holding a at every position: the number of positions landing on each row,
  times a, computed without a second pass. At the exact values, for any extents; the number of columns of the
  extended array is a separate variable with C1 = C + 1 a hypothesis.
-/
import proofs.«134031_j31344671326737_2_alg».proof.Proof.LibGatherScatter
import proofs.«134031_j31344671326737_2_alg».proof.Proof.LibVecScatter
import Idealize.ShloMosaic.Lib.ValueLayout

noncomputable section

open scoped BigOperators

namespace Cert.Lib.OnesColumn

open Idealize.ShloMosaic Idealize.ShloMosaic.ValueIdx Cert.Lib.GatherScatter

variable {N C C1 R w : Nat}

/-- Feature column q as a column of the extended array. -/
abbrev featCol (hC : C1 = C + 1) (q : Fin C) : Fin C1 := ⟨q.val, by have := q.isLt; omega⟩
/-- The appended column. -/
abbrev lastCol (hC : C1 = C + 1) : Fin C1 := ⟨C, by omega⟩

section
variable {α : Type} (hC : C1 = C + 1) (x : (⟨2, ![N, C]⟩ : Shape).Idx → α) (one : (⟨2, ![N, 1]⟩ : Shape).Idx → α)
  (hcat : Shape.Concatenates [(⟨2, ![N, C]⟩ : Shape), (⟨2, ![N, 1]⟩ : Shape)] ⟨2, ![N, C1]⟩ 1)

/-- The extended array at a feature column is the features. -/
theorem cat_feat (r : Fin N) (q : Fin C) :
    concatenate ⟨2, ![N, C1]⟩ 1 [⟨⟨2, ![N, C]⟩, x⟩, ⟨⟨2, ![N, 1]⟩, one⟩] hcat (ix2 r (featCol hC q)) = x (ix2 r q) :=
  concatenate_pair_apply_left 1 x one hcat _ rfl (ix2 r q) fun b => by
    match b with
    | ⟨0, _⟩ => rfl
    | ⟨1, _⟩ => rfl

/-- The extended array at the appended column is the appended column. -/
theorem cat_last (r : Fin N) :
    concatenate ⟨2, ![N, C1]⟩ 1 [⟨⟨2, ![N, C]⟩, x⟩, ⟨⟨2, ![N, 1]⟩, one⟩] hcat (ix2 r (lastCol hC)) = one (ix2 r (0 : Fin 1)) :=
  concatenate_pair_apply_right 1 x one hcat _ rfl rfl (ix2 r (0 : Fin 1))
    (fun b hb => by
      match b with
      | ⟨0, _⟩ => rfl
      | ⟨1, _⟩ => exact absurd rfl hb)
    (by show (0 : Nat) + C = C; omega)
end

variable {φ : FTy} (hC : C1 = C + 1)
  (wg1 : GatherDims.WF ⟨2, ![N, C1]⟩ ⟨2, ![R, 1]⟩ ⟨2, ![R, C1]⟩ [1] [0] [] [0] [] 1 ![1, C1])
  (ws1 : ScatterDims.WF ⟨2, ![N, C1]⟩ ⟨2, ![R, 1]⟩ ⟨2, ![R, C1]⟩ [1] [0] [0] 1)
  (hcat : Shape.Concatenates [(⟨2, ![N, C]⟩ : Shape), (⟨2, ![N, 1]⟩ : Shape)] ⟨2, ![N, C1]⟩ 1)
  (x : FVec Ideal ⟨2, ![N, C]⟩ φ) (one : FVec Ideal ⟨2, ![N, 1]⟩ φ) (o1 : FVec Ideal ⟨2, ![N, C1]⟩ φ)
  (src dst : IVec ⟨2, ![R, 1]⟩ w)

/-- The first C columns: the accumulation of the gathered feature rows alone. -/
theorem features_apply (hN : 0 < N)
    (wg : GatherDims.WF ⟨2, ![N, C]⟩ ⟨2, ![R, 1]⟩ ⟨2, ![R, C]⟩ [1] [0] [] [0] [] 1 ![1, C])
    (ws : ScatterDims.WF ⟨2, ![N, C]⟩ ⟨2, ![R, 1]⟩ ⟨2, ![R, C]⟩ [1] [0] [0] 1)
    (hsl : (⟨2, ![N, C1]⟩ : Shape).Slices ![0, 0] ⟨2, ![N, C]⟩)
    (o : FVec Ideal ⟨2, ![N, C]⟩ φ) (ho : ∀ n q, o1 (ix2 n (featCol hC q)) = o (ix2 n q)) (n : Fin N) (q : Fin C) :
    extractStridedSlice ⟨2, ![N, C]⟩ ![0, 0]
        (Host.scatterAdd (rowScatterDims N C1 R ws1) o1 dst
          (Host.gather (rowGatherDims N C1 R wg1) (concatenate ⟨2, ![N, C1]⟩ 1 [⟨⟨2, ![N, C]⟩, x⟩, ⟨⟨2, ![N, 1]⟩, one⟩] hcat) src))
        hsl (ix2 n q)
      = Host.scatterAdd (rowScatterDims N C R ws) o dst (Host.gather (rowGatherDims N C R wg) x src) (ix2 n q) := by
  rw [slice2_axis1_apply 0 _ hsl n q (featCol hC q) (Nat.zero_add _).symm, rowScatterAdd_apply, rowScatterAdd_apply, ho]
  congr 1
  refine Finset.sum_congr rfl fun e _ => ?_
  rw [rowGather_apply hN, rowGather_apply hN, cat_feat hC]

/-- The last column: the accumulation of a constant vector into a vector. -/
theorem degree_apply (hN : 0 < N)
    (wsv : ScatterDims.WF ⟨1, ![N]⟩ ⟨2, ![R, 1]⟩ ⟨1, ![R]⟩ [] [0] [0] 1)
    (hsl : (⟨2, ![N, C1]⟩ : Shape).Slices ![0, C] ⟨2, ![N, 1]⟩)
    (ov : FVec Ideal ⟨1, ![N]⟩ φ) (upd : FVec Ideal ⟨1, ![R]⟩ φ) (a : Ideal φ)
    (hov : ∀ n, o1 (ix2 n (lastCol hC)) = ov (ix1 n)) (hone : ∀ r, one (ix2 r (0 : Fin 1)) = a)
    (hupd : ∀ e, upd (ix1 e) = a) (n : Fin N) (u : Fin 1) :
    extractStridedSlice ⟨2, ![N, 1]⟩ ![0, C]
        (Host.scatterAdd (rowScatterDims N C1 R ws1) o1 dst
          (Host.gather (rowGatherDims N C1 R wg1) (concatenate ⟨2, ![N, C1]⟩ 1 [⟨⟨2, ![N, C]⟩, x⟩, ⟨⟨2, ![N, 1]⟩, one⟩] hcat) src))
        hsl (ix2 n u)
      = Host.scatterAdd (vecScatterDims N R wsv) ov dst upd (ix1 n) := by
  have hu : (lastCol hC : Fin C1).val = C + u.val := by
    have : u.val = 0 := by omega
    show C = C + u.val
    omega
  rw [slice2_axis1_apply C _ hsl n u (lastCol hC) hu, rowScatterAdd_apply, vecScatterAdd_apply, hov]
  congr 1
  refine Finset.sum_congr rfl fun e _ => ?_
  rw [rowGather_apply hN, cat_last hC, hone, hupd]

end Cert.Lib.OnesColumn

end
-- ==== Proof.Stages.lean ====
/-
  The kernel's host stages, each equal to the reference's.

  Around its two regions the kernel's program computes, on the host: the source and destination index columns from
  the edge list; one gather and one accumulation of the features extended by a column of ones, from which the first
  64 columns are the summed neighbour features and the last column, clipped below at one, the degree; the quotient of
  the two (the mean); after the first region the same gather, accumulation and quotient on the hidden features, with
  the same degree; zero-padded copies of the second layer's weights and bias; and after the second region the first
  two columns of its output. The reference computes the sums of neighbour features and the degree by separate
  accumulations, the degree once per layer, and applies both dense layers on the host. Stage by stage the two are the
  same arrays: the accumulations agree column by column, the dense layers are the same sums, and the padding never
  reaches the two columns that are kept.
-/
import proofs.«134031_j31344671326737_2_alg».proof.Proof.Gen.KernelIdeal.Frame
import proofs.«134031_j31344671326737_2_alg».proof.Proof.Gen.ReferenceIdeal.Read
import proofs.«134031_j31344671326737_2_alg».proof.Proof.LibOnesColumn
import Idealize.ShloMosaic.Lib.ValueLayout

set_option maxRecDepth 16384

noncomputable section

open scoped BigOperators

namespace Cert.KernelIdeal.Stages

open Cert.KernelIdeal
open Idealize.ShloMosaic Idealize.ShloMosaic.TcCoe Idealize.ShloMosaic.ValueIdx
open Cert.Lib Cert.Lib.GatherScatter
open Cert.ReferenceIdeal (main_arg0)

/-! ## The kernel's stages before the first region -/

/-- The source words, one per edge. -/
def srcVec (ei : IVec S2x1000000 32) : IVec S1000000 32 :=
  shapeCast S1000000 (extractStridedSlice S1x1000000 ![0, 0] ei Facts₀.slices_S2x1000000_S1x1000000_0_0) Facts₀.shapeCasts_S1x1000000_S1000000
/-- The destination words, one per edge. -/
def dstVec (ei : IVec S2x1000000 32) : IVec S1000000 32 :=
  shapeCast S1000000 (extractStridedSlice S1x1000000 ![1, 0] ei Facts₀.slices_S2x1000000_S1x1000000_1_0) Facts₀.shapeCasts_S1x1000000_S1000000
/-- The source column a gather reads through: a negative word moved up by the number of nodes. -/
def srcCol (ei : IVec S2x1000000 32) : IVec S1000000x1 32 :=
  broadcastInDim S1000000x1 ![0] Facts₀.bcast_S1000000_S1000000x1_0
    (select (cmpi .slt (srcVec ei) (broadcastInDim S1000000 ![] Facts₀.bcast_S_S1000000 (constantI S_ 32 0#32)))
      (addi (srcVec ei) (broadcastInDim S1000000 ![] Facts₀.bcast_S_S1000000 (constantI S_ 32 100000#32))) (srcVec ei))
/-- The destination column an accumulation lands through. -/
def dstCol (ei : IVec S2x1000000 32) : IVec S1000000x1 32 :=
  broadcastInDim S1000000x1 ![0] Facts₀.bcast_S1000000_S1000000x1_0 (dstVec ei)

/-- The column of ones appended to the features. -/
def onesCol : FVec Ideal S100000x1 .f32 :=
  broadcastInDim S100000x1 ![] Facts₀.bcast_S_S100000x1 (constant S_ .f32 0x3F800000#32)

/-- The extended features gathered along the edges and accumulated at the destinations. -/
def acc65 (x : FVec Ideal S100000x64 .f32) (ei : IVec S2x1000000 32) : FVec Ideal S100000x65 .f32 :=
  Host.scatterAdd scatter_S100000x65_S1000000x1_S1000000x65_1_0_0_1
    (broadcastInDim S100000x65 ![] Facts₀.bcast_S_S100000x65 (constant S_ .f32 0x00000000#32)) (dstCol ei)
    (Host.gather gather_S100000x65_S1000000x1_S1000000x65_1_0_n_n_0_1_165
      (concatenate S100000x65 1 [⟨S100000x64, x⟩, ⟨S100000x1, onesCol⟩] Facts₀.concatenates_S100000x64_S100000x1_S100000x65_d1)
      (srcCol ei))

/-- The degree column, clipped below at one. -/
def degCol (x : FVec Ideal S100000x64 .f32) (ei : IVec S2x1000000 32) : FVec Ideal S100000x1 .f32 :=
  maximumf (extractStridedSlice S100000x1 ![0, 64] (acc65 x ei) Facts₀.slices_S100000x65_S100000x1_0_64) onesCol

/-- The mean of the neighbours' features. -/
def mean1 (x : FVec Ideal S100000x64 .f32) (ei : IVec S2x1000000 32) : FVec Ideal S100000x64 .f32 :=
  Host.divf (extractStridedSlice S100000x64 ![0, 0] (acc65 x ei) Facts₀.slices_S100000x65_S100000x64_0_0)
    (broadcastInDim S100000x64 ![0, 1] Facts₀.bcast_S100000x1_S100000x64_0_1 (degCol x ei))

/-! ## The kernel's stages between and after the regions -/

/-- The first layer's bias as a row, in the kernel's spelling. -/
def biasRow1 (b : FVec Ideal S64 .f32) : FVec Ideal S1x64 .f32 := shapeCast S1x64 b Facts₀.shapeCasts_S64_S1x64

/-- The mean of the neighbours' hidden features, with the first layer's degree. -/
def mean2 (H x : FVec Ideal S100000x64 .f32) (ei : IVec S2x1000000 32) : FVec Ideal S100000x64 .f32 :=
  Host.divf
    (Host.scatterAdd scatter_S100000x64_S1000000x1_S1000000x64_1_0_0_1
      (broadcastInDim S100000x64 ![] Facts₀.bcast_S_S100000x64 (constant S_ .f32 0x00000000#32)) (dstCol ei)
      (Host.gather gather_S100000x64_S1000000x1_S1000000x64_1_0_n_n_0_1_164 H (srcCol ei)))
    (broadcastInDim S100000x64 ![0, 1] Facts₀.bcast_S100000x1_S100000x64_0_1 (degCol x ei))

/-- A 2 × 64 weight matrix with 126 rows of the padding value below it. -/
def padW (W : FVec Ideal S2x64 .f32) : FVec Ideal S128x64 .f32 :=
  pad S128x64 ![0, 0] ![126, 0] ![0, 0] W (sitofp .f32 (constantI S_ 32 0#32) : FVec Ideal S_ .f32)
    Facts₀.pads_S2x64_S128x64_01260_000 Facts₀.h_S_
/-- The length-2 bias with 126 entries of the padding value behind it, as a row. -/
def padB (b : FVec Ideal S2 .f32) : FVec Ideal S1x128 .f32 :=
  shapeCast S1x128 (pad S128 ![0] ![126] ![0] b (sitofp .f32 (constantI S_ 32 0#32) : FVec Ideal S_ .f32)
    Facts₀.pads_S2_S128_01260 Facts₀.h_S_) Facts₀.shapeCasts_S128_S1x128

/-! ## They are the reference's -/

theorem srcCol_eq (ei : IVec S2x1000000 32) : srcCol ei = Cert.ReferenceIdeal.Read.val_main_v9 (F := Ideal) ei := rfl
theorem dstCol_eq (ei : IVec S2x1000000 32) : dstCol ei = Cert.ReferenceIdeal.Read.val_main_v12 (F := Ideal) ei := rfl

/-- The first 64 columns of the accumulated extended features are the accumulated features. -/
theorem features_eq (x : FVec Ideal S100000x64 .f32) (ei : IVec S2x1000000 32) :
    extractStridedSlice S100000x64 ![0, 0] (acc65 x ei) Facts₀.slices_S100000x65_S100000x64_0_0
      = Cert.ReferenceIdeal.Read.val_main_v13 (F := Ideal) x ei := by
  funext i
  obtain ⟨n, q, rfl⟩ : ∃ (n : Fin 100000) (q : Fin 64), i = ix2 n q := ⟨i 0, i 1, eq_ix2 i⟩
  exact OnesColumn.features_apply (C := 64) (C1 := 65) (hC := rfl)
    (wg1 := Facts₀.gather_S100000x65_S1000000x1_S1000000x65_1_0_n_n_0_1_165_wf)
    (ws1 := Facts₀.scatter_S100000x65_S1000000x1_S1000000x65_1_0_0_1_wf)
    (hcat := Facts₀.concatenates_S100000x64_S100000x1_S100000x65_d1) (x := x) (one := onesCol)
    (o1 := broadcastInDim S100000x65 ![] Facts₀.bcast_S_S100000x65 (constant S_ .f32 0x00000000#32))
    (src := srcCol ei) (dst := dstCol ei) (hN := by decide)
    (wg := Cert.ReferenceIdeal.Facts₀.gather_S100000x64_S1000000x1_S1000000x64_1_0_n_n_0_1_164_wf)
    (ws := Cert.ReferenceIdeal.Facts₀.scatter_S100000x64_S1000000x1_S1000000x64_1_0_0_1_wf)
    (hsl := Facts₀.slices_S100000x65_S100000x64_0_0) (o := Cert.ReferenceIdeal.Read.val_main_v11 (F := Ideal)) (ho := fun _ _ => rfl) n q

/-- The clipped last column of the accumulated extended features is the reference's clipped degree, as a column. -/
theorem degree_eq (x : FVec Ideal S100000x64 .f32) (ei : IVec S2x1000000 32) :
    degCol x ei = Cert.ReferenceIdeal.Read.val_main_v20 (F := Ideal) ei := by
  funext i
  obtain ⟨n, u, rfl⟩ : ∃ (n : Fin 100000) (u : Fin 1), i = ix2 n u := ⟨i 0, i 1, eq_ix2 i⟩
  unfold degCol
  rw [maximumf_apply]
  unfold Cert.ReferenceIdeal.Read.val_main_v20
  rw [column_apply]
  unfold Cert.ReferenceIdeal.Read.val_main_v19
  rw [maximumf_apply]
  refine congrArg₂ max ?_ rfl
  exact OnesColumn.degree_apply (C := 64) (C1 := 65) (hC := rfl)
    (wg1 := Facts₀.gather_S100000x65_S1000000x1_S1000000x65_1_0_n_n_0_1_165_wf)
    (ws1 := Facts₀.scatter_S100000x65_S1000000x1_S1000000x65_1_0_0_1_wf)
    (hcat := Facts₀.concatenates_S100000x64_S100000x1_S100000x65_d1) (x := x) (one := onesCol)
    (o1 := broadcastInDim S100000x65 ![] Facts₀.bcast_S_S100000x65 (constant S_ .f32 0x00000000#32))
    (src := srcCol ei) (dst := dstCol ei) (hN := by decide)
    (wsv := Cert.ReferenceIdeal.Facts₀.scatter_S100000_S1000000x1_S1000000_n_0_0_1_wf)
    (hsl := Facts₀.slices_S100000x65_S100000x1_0_64) (ov := Cert.ReferenceIdeal.Read.val_main_v15 (F := Ideal)) (upd := Cert.ReferenceIdeal.Read.val_main_v14 (F := Ideal))
    (a := Ideal.ofBits .f32 0x3F800000#32) (hov := fun _ => rfl) (hone := fun _ => rfl) (hupd := fun _ => rfl) n u

/-- The kernel's mean of the neighbours' features is the reference's. -/
theorem mean1_eq (x : FVec Ideal S100000x64 .f32) (ei : IVec S2x1000000 32) :
    mean1 x ei = Cert.ReferenceIdeal.Read.val_main_v22 (F := Ideal) x ei := by
  unfold mean1
  rw [features_eq, degree_eq]
  rfl

end Cert.KernelIdeal.Stages

end
-- ==== Proof.LibPlainDot.lean ====
/-
  A plain matrix product read at an index.

  The dimension numbers of an [a, c] × [c, b] → [a, b] product contract the left operand's axis 1 with the right
  operand's axis 0 and have no batch axis. At result index (p, q) and contraction position k the left operand is
  read at (p, k) and the right operand at (k, q), so the sum over the contraction shape's one-axis index set is the
  sum over k : Fin c of lhs (p, k) * rhs (k, q) — in any commutative additive monoid with a product, the extended
  reals included. The statement is over variable extents; a printed record with these six lists is this one by
  reflexivity.
-/
import Idealize.ShloMosaic.Lib.ValueIdx
import Idealize.ShloMosaic.PureOps.Ideal.Laws

noncomputable section

namespace Cert.Lib.PlainDot

open Idealize.ShloMosaic Idealize.ShloMosaic.ValueIdx
open scoped BigOperators

variable {a c b : Nat}

/-- The dimension numbers of the plain product [a, c] × [c, b] → [a, b]. -/
abbrev dims (wf : DotDims.WF ⟨2, ![a, c]⟩ ⟨2, ![c, b]⟩ ⟨2, ![a, b]⟩ [1] [0] [0] [1] [] []) :
    DotDims ⟨2, ![a, c]⟩ ⟨2, ![c, b]⟩ ⟨2, ![a, b]⟩ where
  lhsContracting := [1]
  rhsContracting := [0]
  lhsNonContracting := [0]
  rhsNonContracting := [1]
  lhsBatch := []
  rhsBatch := []
  wf := wf

variable (wf : DotDims.WF ⟨2, ![a, c]⟩ ⟨2, ![c, b]⟩ ⟨2, ![a, b]⟩ [1] [0] [0] [1] [] [])

/-- The left operand's row is the result's row. -/
theorem lhs_row (i : (⟨2, ![a, b]⟩ : Shape).Idx) (k : (dims wf).contr.Idx) :
    ((dims wf).lhsIdx i k 0).val = (i 0).val := by
  unfold DotDims.lhsIdx
  rw [dif_neg (show ¬(0 : Fin 2) ∈ (dims wf).lhsBatch from List.not_mem_nil),
    dif_pos (show (0 : Fin 2) ∈ (dims wf).lhsNonContracting from List.mem_singleton.mpr rfl)]
  rfl

/-- The left operand's column is the contraction position. -/
theorem lhs_col (i : (⟨2, ![a, b]⟩ : Shape).Idx) (k : (dims wf).contr.Idx) :
    ((dims wf).lhsIdx i k 1).val = (k ⟨0, Nat.one_pos⟩).val :=
  (dims wf).lhsIdx_val_of_single rfl i k

/-- The right operand's row is the contraction position. -/
theorem rhs_row (i : (⟨2, ![a, b]⟩ : Shape).Idx) (k : (dims wf).contr.Idx) :
    ((dims wf).rhsIdx i k 0).val = (k ⟨0, Nat.one_pos⟩).val :=
  (dims wf).rhsIdx_val_of_single rfl i k

/-- The right operand's column is the result's column. -/
theorem rhs_col (i : (⟨2, ![a, b]⟩ : Shape).Idx) (k : (dims wf).contr.Idx) :
    ((dims wf).rhsIdx i k 1).val = (i 1).val := by
  unfold DotDims.rhsIdx
  rw [dif_neg (show ¬(1 : Fin 2) ∈ (dims wf).rhsBatch from List.not_mem_nil),
    dif_pos (show (1 : Fin 2) ∈ (dims wf).rhsNonContracting from List.mem_singleton.mpr rfl)]
  rfl

/-- The product's sum at (p, q): over k, the left operand at (p, k) times the right operand at (k, q). -/
theorem sum_apply {M : Type*} [AddCommMonoid M] [Mul M] (lhs : (⟨2, ![a, c]⟩ : Shape).Idx → M)
    (rhs : (⟨2, ![c, b]⟩ : Shape).Idx → M) (p : Fin a) (q : Fin b) :
    ∑ k : (dims wf).contr.Idx, lhs ((dims wf).lhsIdx (ix2 p q) k) * rhs ((dims wf).rhsIdx (ix2 p q) k)
      = ∑ k : Fin c, lhs (ix2 p k) * rhs (ix2 k q) := by
  rw [← Equiv.sum_comp (contrEquiv1 (dims wf) c rfl rfl).symm]
  refine Finset.sum_congr rfl fun k _ => ?_
  have hk := contrEquiv1_symm_val (dims wf) c rfl rfl k
  have el : (dims wf).lhsIdx (ix2 p q) ((contrEquiv1 (dims wf) c rfl rfl).symm k) = ix2 p k :=
    funext fun ax => Fin.ext (by
      match ax with
      | ⟨0, _⟩ => exact lhs_row wf _ _
      | ⟨1, _⟩ => exact (lhs_col wf _ _).trans hk)
  have er : (dims wf).rhsIdx (ix2 p q) ((contrEquiv1 (dims wf) c rfl rfl).symm k) = ix2 k q :=
    funext fun ax => Fin.ext (by
      match ax with
      | ⟨0, _⟩ => exact (rhs_row wf _ _).trans hk
      | ⟨1, _⟩ => exact rhs_col wf _ _)
  rw [el, er]

/-- A kernel's product into a zero accumulator, at the exact values, read at (p, q). -/
theorem matmul_zero_apply {φ₁ φ₂ : FTy} (prec : Option ContractPrecision) (lhs : FVec Ideal ⟨2, ![a, c]⟩ φ₁)
    (rhs : FVec Ideal ⟨2, ![c, b]⟩ φ₂) (p : Fin a) (q : Fin b) :
    matmul (dims wf) prec lhs rhs (constant ⟨2, ![a, b]⟩ .f32 0x00000000#32) (ix2 p q)
      = ∑ k : Fin c, lhs (ix2 p k) * rhs (ix2 k q) :=
  (Ideal.matmul_constant_zero_apply (dims wf) prec lhs rhs (ix2 p q)).trans (sum_apply wf lhs rhs p q)

/-- The host's product, at the exact values, read at (p, q). -/
theorem dotGeneral_apply {φ₁ φ₂ : FTy} (prec : Option ContractPrecision) (lhs : FVec Ideal ⟨2, ![a, c]⟩ φ₁)
    (rhs : FVec Ideal ⟨2, ![c, b]⟩ φ₂) (p : Fin a) (q : Fin b) :
    Host.dotGeneral (dims wf) prec lhs rhs (ix2 p q) = ∑ k : Fin c, lhs (ix2 p k) * rhs (ix2 k q) :=
  (Ideal.dotGeneral_apply (dims wf) prec _ lhs rhs (ix2 p q)).trans (sum_apply wf lhs rhs p q)

end Cert.Lib.PlainDot

end
-- ==== Proof.LibMergeRows.lean ====
/-
  Two leading axes merged into one, and split again, read at an index.

  An a × b × c array reshaped to r × c with r = a · b keeps its row-major order, so row (p, q) of the a × b grid of
  length-c rows becomes flat row b · p + q: the reshaped array at (b · p + q, k) is the array at (p, q, k), and an
  r × c array reshaped to a × b × c reads, at (p, q, k), the flat array at (b · p + q, k). For any element type and any
  extents; the number of flat rows is a separate variable with the equation r = a · b as a hypothesis, so that a
  literal such as 65536 need not be spelt as a product.
-/
import Idealize.ShloMosaic.Lib.Pipeline.Value
import Idealize.ShloMosaic.Lib.ValueIdx

noncomputable section

namespace Cert.Lib.MergeRows

open Idealize.ShloMosaic Idealize.ShloMosaic.ValueIdx

variable {a b c r : Nat}

/-- Flat row b · p + q of the r = a · b rows. -/
abbrev flatRow (hr : r = a * b) (p : Fin a) (q : Fin b) : Fin r :=
  ⟨p.val * b + q.val, by
    have hp := p.isLt
    have hq := q.isLt
    have h1 : p.val * b + b ≤ a * b := by
      have := Nat.mul_le_mul_right b (Nat.succ_le_of_lt hp)
      rwa [Nat.succ_mul] at this
    omega⟩

/-- The merged array at (b · p + q, k) is the array at (p, q, k). -/
theorem merge_apply {α : Type} (hr : r = a * b) (x : (⟨3, ![a, b, c]⟩ : Shape).Idx → α)
    (h : (⟨3, ![a, b, c]⟩ : Shape).ShapeCasts ⟨2, ![r, c]⟩) (p : Fin a) (q : Fin b) (k : Fin c) :
    shapeCast ⟨2, ![r, c]⟩ x h (ix2 (flatRow hr p q) k) = x (ix3 p q k) :=
  shapeCast_apply x h _ _ (by
    rw [Shape.rowMajor_val_two, Shape.rowMajor_val_three]
    rfl)

/-- The split array at (p, q, k) is the flat array at (b · p + q, k). -/
theorem split_apply {α : Type} (hr : r = a * b) (y : (⟨2, ![r, c]⟩ : Shape).Idx → α)
    (h : (⟨2, ![r, c]⟩ : Shape).ShapeCasts ⟨3, ![a, b, c]⟩) (p : Fin a) (q : Fin b) (k : Fin c) :
    shapeCast ⟨3, ![a, b, c]⟩ y h (ix3 p q k) = y (ix2 (flatRow hr p q) k) :=
  shapeCast_apply y h _ _ (by
    rw [Shape.rowMajor_val_two, Shape.rowMajor_val_three]
    rfl)

/-- A length-b vector reshaped to a 1 × b row reads, at (0, q), the vector at q. -/
theorem row_apply {α : Type} (v : (⟨1, ![b]⟩ : Shape).Idx → α)
    (h : (⟨1, ![b]⟩ : Shape).ShapeCasts ⟨2, ![1, b]⟩) (q : Fin b) :
    shapeCast ⟨2, ![1, b]⟩ v h (ix2 (0 : Fin 1) q) = v (ix1 q) :=
  shapeCast_apply v h _ _ (by
    rw [Shape.rowMajor_val_two, Shape.rowMajor_val_one]
    show q.val = 0 * b + q.val
    omega)

/-- Entry (k, o) of the transpose of an a × b matrix is entry (o, k) of the matrix. -/
theorem transpose_apply {α : Type} (L : (⟨2, ![a, b]⟩ : Shape).Idx → α)
    (h : (⟨2, ![a, b]⟩ : Shape).Transposes [1, 0] ⟨2, ![b, a]⟩) (k : Fin b) (o : Fin a) :
    transpose ⟨2, ![b, a]⟩ [1, 0] L h (ix2 k o) = L (ix2 o k) :=
  Idealize.ShloMosaic.transpose_apply [1, 0] L h (ix2 k o) (ix2 o k) fun ax => by
    match ax with
    | ⟨0, _⟩ => rfl
    | ⟨1, _⟩ => rfl

end Cert.Lib.MergeRows

end
-- ==== Proof.LibRowBroadcasts.lean ====
/-
  Rows, columns and bias vectors broadcast, read at an index.

  The complements of the keepdims column forms: a `1 × b` row broadcast down `a` rows as a vector broadcast and as a
  dimension broadcast, an `a × 1` column broadcast across `c` columns as a dimension broadcast — each reads, at
  `(p, q)`, the operand at its one free coordinate — and the fact that a length-`b` vector cast to a `1 × b` row is the
  same array as that vector broadcast along dimension 1 (two spellings of "add a leading unit axis"). For any element
  type and any extents.
-/
import Idealize.ShloMosaic.Lib.Pipeline.Value
import Idealize.ShloMosaic.Lib.ValueIdx

noncomputable section

namespace Cert.Lib.Rows

open Idealize.ShloMosaic Idealize.ShloMosaic.ValueIdx

variable {a c b : Nat}

/-- A `1 × b` row broadcast down the rows reads, at `(p, q)`, the row at `q`. -/
theorem bcastRow_apply {α : Type} (v : (⟨2, ![1, b]⟩ : Shape).Idx → α)
    (h : (⟨2, ![1, b]⟩ : Shape).Broadcasts ⟨2, ![a, b]⟩) (p : Fin a) (q : Fin b) :
    broadcastTo ⟨2, ![a, b]⟩ v h (ix2 p q) = v (ix2 (0 : Fin 1) q) := by
  refine broadcastTo_apply v h (ix2 p q) (ix2 (0 : Fin 1) q) fun ax => ?_
  match ax with
  | ⟨0, _⟩ =>
    show (0 : Nat) = if (1 : Nat) = 1 then 0 else p.val
    rw [if_pos rfl]
  | ⟨1, _⟩ =>
    show q.val = if b = 1 then 0 else q.val
    split
    · have := q.isLt; omega
    · rfl

/-- An `a × 1` column broadcast in dimensions `[0, 1]` reads, at `(p, k)`, the column at `p`. -/
theorem dimCol_apply {α : Type} (v : (⟨2, ![a, 1]⟩ : Shape).Idx → α)
    (h : (⟨2, ![a, 1]⟩ : Shape).BroadcastsInDim ⟨2, ![a, c]⟩ ![0, 1]) (p : Fin a) (k : Fin c) :
    broadcastInDim ⟨2, ![a, c]⟩ ![0, 1] h v (ix2 p k) = v (ix2 p (0 : Fin 1)) := by
  refine broadcastInDim_apply _ h v (ix2 p k) (ix2 p (0 : Fin 1)) fun ax => ?_
  match ax with
  | ⟨0, _⟩ =>
    show p.val = if a = 1 then 0 else p.val
    split
    · have := p.isLt; omega
    · rfl
  | ⟨1, _⟩ =>
    show (0 : Nat) = if (1 : Nat) = 1 then 0 else k.val
    rw [if_pos rfl]

/-- A `1 × b` row broadcast in dimensions `[0, 1]` reads, at `(p, q)`, the row at `q`. -/
theorem dimRow_apply {α : Type} (v : (⟨2, ![1, b]⟩ : Shape).Idx → α)
    (h : (⟨2, ![1, b]⟩ : Shape).BroadcastsInDim ⟨2, ![a, b]⟩ ![0, 1]) (p : Fin a) (q : Fin b) :
    broadcastInDim ⟨2, ![a, b]⟩ ![0, 1] h v (ix2 p q) = v (ix2 (0 : Fin 1) q) := by
  refine broadcastInDim_apply _ h v (ix2 p q) (ix2 (0 : Fin 1) q) fun ax => ?_
  match ax with
  | ⟨0, _⟩ =>
    show (0 : Nat) = if (1 : Nat) = 1 then 0 else p.val
    rw [if_pos rfl]
  | ⟨1, _⟩ =>
    show q.val = if b = 1 then 0 else q.val
    split
    · have := q.isLt; omega
    · rfl

/-- A length-`b` vector cast to a `1 × b` row is the vector broadcast along dimension 1: both read, at `(·, q)`, the
    vector at `q`. -/
theorem castRow_eq_dimRow {α : Type} (v : (⟨1, ![b]⟩ : Shape).Idx → α)
    (hc : (⟨1, ![b]⟩ : Shape).ShapeCasts ⟨2, ![1, b]⟩)
    (hb : (⟨1, ![b]⟩ : Shape).BroadcastsInDim ⟨2, ![1, b]⟩ ![1]) :
    shapeCast ⟨2, ![1, b]⟩ v hc = broadcastInDim ⟨2, ![1, b]⟩ ![1] hb v := by
  funext j
  obtain ⟨u, q, rfl⟩ : ∃ (u : Fin 1) (q : Fin b), j = ix2 u q := ⟨j 0, j 1, eq_ix2 j⟩
  have hu : u.val = 0 := by omega
  have e1 : shapeCast ⟨2, ![1, b]⟩ v hc (ix2 u q) = v (ix1 q) :=
    shapeCast_apply v hc _ _ (by
      rw [Shape.rowMajor_val_two, Shape.rowMajor_val_one]
      show q.val = u.val * b + q.val
      rw [hu, Nat.zero_mul, Nat.zero_add])
  have e2 : broadcastInDim ⟨2, ![1, b]⟩ ![1] hb v (ix2 u q) = v (ix1 q) :=
    broadcastInDim_apply _ hb v (ix2 u q) (ix1 q) fun ax => by
      match ax with
      | ⟨0, _⟩ =>
        show q.val = if b = 1 then 0 else q.val
        split
        · have := q.isLt; omega
        · rfl
  rw [e1, e2]

end Cert.Lib.Rows

end
-- ==== Proof.LibSageDense.lean ====
/-
  A mean-aggregation dense stage read at an index.

  One stage of a two-matrix dense layer with output-major weights: from an n × d array a of aggregated features and
  an n × d array h of the nodes' own features, o × d weight matrices Wl and Wr and a 1 × o bias row, the n × o array
  whose entry (p, q) is Σ k, a (p, k) · Wl (q, k) + Σ k, h (p, k) · Wr (q, k) + bias (0, q). A kernel body spells it
  with the weights transposed in the body, two matrix products into zero accumulators and the bias row broadcast
  down the rows; a host program with the transposes and two contractions as host operations and the bias row
  broadcast along dimensions [0, 1]. Both read this sum at the exact values, over any extents. Restricting the
  outputs to a subset of columns whose weight rows and bias entries are those of smaller matrices gives the smaller
  stage: zero-padding the weights to more output columns and cutting the result back changes nothing.
-/
import proofs.«134031_j31344671326737_2_alg».proof.Proof.LibPlainDot
import proofs.«134031_j31344671326737_2_alg».proof.Proof.LibMergeRows
import proofs.«134031_j31344671326737_2_alg».proof.Proof.LibRowBroadcasts

noncomputable section

open scoped BigOperators

namespace Cert.Lib.SageDense

open Idealize.ShloMosaic Idealize.ShloMosaic.ValueIdx

variable {n d o : Nat}

/-- Entry (p, q) of the stage: the aggregated features against row q of Wl, plus the own features against row q of Wr,
    plus the bias row's entry q. -/
def dense (a h : (⟨2, ![n, d]⟩ : Shape).Idx → EReal) (Wl Wr : (⟨2, ![o, d]⟩ : Shape).Idx → EReal)
    (brow : (⟨2, ![1, o]⟩ : Shape).Idx → EReal) : (⟨2, ![n, o]⟩ : Shape).Idx → EReal := fun i =>
  (∑ k : Fin d, a (ix2 (i 0) k) * Wl (ix2 (i 1) k)) + (∑ k : Fin d, h (ix2 (i 0) k) * Wr (ix2 (i 1) k))
    + brow (ix2 (0 : Fin 1) (i 1))

/-- The kernel body's spelling, read at (p, q). -/
theorem kernel_apply {φ₁ φ₂ : FTy}
    (wf : DotDims.WF ⟨2, ![n, d]⟩ ⟨2, ![d, o]⟩ ⟨2, ![n, o]⟩ [1] [0] [0] [1] [] [])
    (ht : (⟨2, ![o, d]⟩ : Shape).Transposes [1, 0] ⟨2, ![d, o]⟩)
    (hb : (⟨2, ![1, o]⟩ : Shape).Broadcasts ⟨2, ![n, o]⟩)
    (x0 x1 : FVec Ideal ⟨2, ![n, d]⟩ φ₁) (x2 x3 : FVec Ideal ⟨2, ![o, d]⟩ φ₂) (x4 : FVec Ideal ⟨2, ![1, o]⟩ .f32)
    (p : Fin n) (q : Fin o) :
    addf (addf (matmul (PlainDot.dims wf) none x0 (transpose ⟨2, ![d, o]⟩ [1, 0] x2 ht) (constant ⟨2, ![n, o]⟩ .f32 0x00000000#32))
               (matmul (PlainDot.dims wf) none x1 (transpose ⟨2, ![d, o]⟩ [1, 0] x3 ht) (constant ⟨2, ![n, o]⟩ .f32 0x00000000#32)))
         (broadcastTo ⟨2, ![n, o]⟩ x4 hb) (ix2 p q)
      = dense x0 x1 x2 x3 x4 (ix2 p q) := by
  rw [addf_apply, addf_apply, PlainDot.matmul_zero_apply, PlainDot.matmul_zero_apply, Rows.bcastRow_apply]
  have e2 : ∀ k : Fin d, transpose ⟨2, ![d, o]⟩ [1, 0] x2 ht (ix2 k q) = x2 (ix2 q k) :=
    fun k => MergeRows.transpose_apply x2 ht k q
  have e3 : ∀ k : Fin d, transpose ⟨2, ![d, o]⟩ [1, 0] x3 ht (ix2 k q) = x3 (ix2 q k) :=
    fun k => MergeRows.transpose_apply x3 ht k q
  simp only [e2, e3]
  rfl

/-- The host's spelling, read at (p, q). -/
theorem host_apply {φ₁ φ₂ : FTy}
    (wf : DotDims.WF ⟨2, ![n, d]⟩ ⟨2, ![d, o]⟩ ⟨2, ![n, o]⟩ [1] [0] [0] [1] [] [])
    (ht : (⟨2, ![o, d]⟩ : Shape).Transposes [1, 0] ⟨2, ![d, o]⟩)
    (hb : (⟨2, ![1, o]⟩ : Shape).BroadcastsInDim ⟨2, ![n, o]⟩ ![0, 1])
    (a h : FVec Ideal ⟨2, ![n, d]⟩ φ₁) (Wl Wr : FVec Ideal ⟨2, ![o, d]⟩ φ₂) (brow : FVec Ideal ⟨2, ![1, o]⟩ .f32)
    (p : Fin n) (q : Fin o) :
    addf (addf (Host.dotGeneral (PlainDot.dims wf) none a (transpose ⟨2, ![d, o]⟩ [1, 0] Wl ht))
               (Host.dotGeneral (PlainDot.dims wf) none h (transpose ⟨2, ![d, o]⟩ [1, 0] Wr ht)))
         (broadcastInDim ⟨2, ![n, o]⟩ ![0, 1] hb brow) (ix2 p q)
      = dense a h Wl Wr brow (ix2 p q) := by
  rw [addf_apply, addf_apply, PlainDot.dotGeneral_apply, PlainDot.dotGeneral_apply, Rows.dimRow_apply]
  have e2 : ∀ k : Fin d, transpose ⟨2, ![d, o]⟩ [1, 0] Wl ht (ix2 k q) = Wl (ix2 q k) :=
    fun k => MergeRows.transpose_apply Wl ht k q
  have e3 : ∀ k : Fin d, transpose ⟨2, ![d, o]⟩ [1, 0] Wr ht (ix2 k q) = Wr (ix2 q k) :=
    fun k => MergeRows.transpose_apply Wr ht k q
  simp only [e2, e3]
  rfl

/-- Outputs restricted to columns whose weight rows and bias entries are those of a smaller stage: the smaller stage. -/
theorem dense_restrict {o' : Nat} (ι : Fin o → Fin o')
    (a h : (⟨2, ![n, d]⟩ : Shape).Idx → EReal) (Wl Wr : (⟨2, ![o, d]⟩ : Shape).Idx → EReal)
    (brow : (⟨2, ![1, o]⟩ : Shape).Idx → EReal) (Wl' Wr' : (⟨2, ![o', d]⟩ : Shape).Idx → EReal)
    (brow' : (⟨2, ![1, o']⟩ : Shape).Idx → EReal)
    (hl : ∀ q k, Wl' (ix2 (ι q) k) = Wl (ix2 q k)) (hr : ∀ q k, Wr' (ix2 (ι q) k) = Wr (ix2 q k))
    (hbr : ∀ q, brow' (ix2 (0 : Fin 1) (ι q)) = brow (ix2 (0 : Fin 1) q)) (p : Fin n) (q : Fin o) :
    dense a h Wl' Wr' brow' (ix2 p (ι q)) = dense a h Wl Wr brow (ix2 p q) := by
  unfold dense
  show (∑ k : Fin d, a (ix2 p k) * Wl' (ix2 (ι q) k)) + (∑ k : Fin d, h (ix2 p k) * Wr' (ix2 (ι q) k))
      + brow' (ix2 (0 : Fin 1) (ι q))
    = (∑ k : Fin d, a (ix2 p k) * Wl (ix2 q k)) + (∑ k : Fin d, h (ix2 p k) * Wr (ix2 q k)) + brow (ix2 (0 : Fin 1) q)
  simp only [hl, hr, hbr]

/-- A block of rows: when a block's feature arrays are rows ρ p of whole arrays, and its weights and bias row the
    whole ones, the block's stage at (p, q) is the whole stage at (ρ p, q). -/
theorem dense_rows {r : Nat} (ρ : Fin r → Fin n)
    (x0 x1 : (⟨2, ![r, d]⟩ : Shape).Idx → EReal) (x2 x3 : (⟨2, ![o, d]⟩ : Shape).Idx → EReal)
    (x4 : (⟨2, ![1, o]⟩ : Shape).Idx → EReal)
    (a h : (⟨2, ![n, d]⟩ : Shape).Idx → EReal) (Wl Wr : (⟨2, ![o, d]⟩ : Shape).Idx → EReal)
    (brow : (⟨2, ![1, o]⟩ : Shape).Idx → EReal)
    (h0 : ∀ p k, x0 (ix2 p k) = a (ix2 (ρ p) k)) (h1 : ∀ p k, x1 (ix2 p k) = h (ix2 (ρ p) k))
    (h2 : ∀ q k, x2 (ix2 q k) = Wl (ix2 q k)) (h3 : ∀ q k, x3 (ix2 q k) = Wr (ix2 q k))
    (h4 : ∀ q, x4 (ix2 (0 : Fin 1) q) = brow (ix2 (0 : Fin 1) q)) (p : Fin r) (q : Fin o) :
    dense x0 x1 x2 x3 x4 (ix2 p q) = dense a h Wl Wr brow (ix2 (ρ p) q) := by
  unfold dense
  show (∑ k : Fin d, x0 (ix2 p k) * x2 (ix2 q k)) + (∑ k : Fin d, x1 (ix2 p k) * x3 (ix2 q k)) + x4 (ix2 (0 : Fin 1) q)
    = (∑ k : Fin d, a (ix2 (ρ p) k) * Wl (ix2 q k)) + (∑ k : Fin d, h (ix2 (ρ p) k) * Wr (ix2 q k))
      + brow (ix2 (0 : Fin 1) q)
  simp only [h0, h1, h2, h3, h4]

end Cert.Lib.SageDense

end
-- ==== Proof.Region0.lean ====
/-
  Region 0: the hidden layer as one whole array.

  The first pipelined region runs over 20 grid points; point t takes rows 5000 t … 5000 t + 4999 of the mean-aggregated
  features and of the nodes' own features, the two 64 × 64 weight matrices and the 1 × 64 bias row whole, and writes
  rows 5000 t … 5000 t + 4999 of the output: at (r, q) the maximum of zero and
  Σ k, mean (r, k) · Wl (q, k) + Σ k, x (r, k) · Wr (q, k) + bias (0, q). Each point's write-back is therefore the
  corresponding block of rows of one 100000 × 64 array, the blocks tile that array, and so the region's output array
  ends holding it, whatever the buffers held when the region was entered.
-/
import proofs.«134031_j31344671326737_2_alg».proof.Proof.Gen.KernelIdeal.Frame
import proofs.«134031_j31344671326737_2_alg».proof.Proof.LibSageDense
import Idealize.ShloMosaic.Lib.ValueIdx
import Idealize.ShloMosaic.Lib.Pipeline.Value

set_option maxRecDepth 16384

noncomputable section

open scoped BigOperators

namespace Cert.KernelIdeal.Region0

open Cert.KernelIdeal Cert.KernelIdeal.Gen
open Idealize.ShloMosaic Idealize.ShloMosaic.TcCoe Idealize.ShloMosaic.ValueIdx Idealize.SL.Sem
open Idealize.ShloMosaic.Pipeline (Dat Cfg Window)
open Cert.Lib

/-- The hidden layer from whole arrays: the dense stage clipped below at zero. -/
def hiddenOf (A H : S100000x64.Idx → EReal) (Wl Wr : S64x64.Idx → EReal) (brow : S1x64.Idx → EReal) :
    S100000x64.Idx → EReal := fun i =>
  max (SageDense.dense A H Wl Wr brow i) (Ideal.ofBits .f32 0x00000000#32)

/-- The body's result at (p, q), from the blocks it loads. -/
theorem payload_apply (x0 x1 : Vec Ideal S5000x64 .f32) (x2 x3 : Vec Ideal S64x64 .f32) (x4 : Vec Ideal S1x64 .f32)
    (p : Fin 5000) (q : Fin 64) :
    k0_pay1 (F := Ideal) x0 x1 x2 x3 x4 (ix2 p q)
      = max (SageDense.dense x0 x1 x2 x3 x4 (ix2 p q)) (Ideal.ofBits .f32 0x00000000#32) := by
  unfold k0_pay1
  simp only [shapeCast_self]
  rw [maximumf_apply]
  refine congrArg₂ max ?_ rfl
  exact SageDense.kernel_apply Facts₀.dot_S5000x64_S64x64_S5000x64_1_0_0_1_n_n_wf Facts₀.transposes_S64x64_p1_0_S64x64
    Facts₀.broadcasts_S1x64_S5000x64 _ _ _ _ _ p q

/-- Row p of point t's block is row 5000 t + p of the array. -/
def row (t : Fin cfg0.N) (p : Fin 5000) : Fin 100000 :=
  ⟨t.val * 5000 + p.val, by have ht : t.val < 20 := t.isLt; have := p.isLt; omega⟩

/-- A block whose arrays are rows of whole arrays computes rows of the hidden layer. -/
theorem block_eq (t : Fin cfg0.N) (x0 x1 : Vec Ideal S5000x64 .f32) (x2 x3 : Vec Ideal S64x64 .f32) (x4 : Vec Ideal S1x64 .f32)
    (A H : S100000x64.Idx → EReal) (Wl Wr : S64x64.Idx → EReal) (brow : S1x64.Idx → EReal)
    (h0 : ∀ (p : Fin 5000) (k : Fin 64), x0 (ix2 p k) = A (ix2 (row t p) k))
    (h1 : ∀ (p : Fin 5000) (k : Fin 64), x1 (ix2 p k) = H (ix2 (row t p) k))
    (h2 : ∀ (q k : Fin 64), x2 (ix2 q k) = Wl (ix2 q k)) (h3 : ∀ (q k : Fin 64), x3 (ix2 q k) = Wr (ix2 q k))
    (h4 : ∀ q : Fin 64, x4 (ix2 (0 : Fin 1) q) = brow (ix2 (0 : Fin 1) q)) (j : S5000x64.Idx) :
    k0_pay1 (F := Ideal) x0 x1 x2 x3 x4 j = hiddenOf A H Wl Wr brow (ix2 (row t (j 0)) (j 1)) := by
  obtain ⟨p, q, rfl⟩ : ∃ (p : Fin 5000) (q : Fin 64), j = ix2 p q := ⟨j 0, j 1, eq_ix2 j⟩
  rw [payload_apply]
  exact congrArg (fun v => max v (Ideal.ofBits .f32 0x00000000#32))
    (SageDense.dense_rows (row t) x0 x1 x2 x3 x4 A H Wl Wr brow h0 h1 h2 h3 h4 p q)

theorem hz : (![0, 0] : Fin 2 → Nat) = fun _ => 0 := funext fun a => by fin_cases a <;> rfl

/-- The printed index maps over the grid: the row-tiled windows sit at block row t, the whole ones at the origin. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

variable (V : (c : Dev nD) → (b : Ref sig .tc) → Buf (Elt Ideal) ((c : Thread nD τ).loc b))

/-- The hidden layer of the arrays as the region finds them. -/
def hidden (c : Dev nD) : S100000x64.Idx → EReal :=
  hiddenOf (V c main_v21) (V c main_arg0) (V c main_arg2) (V c main_arg3) (V c main_v22)

/-- What point t writes back is block t of the hidden layer. -/
theorem flushed_eq (c : Dev nD) (t : Fin cfg0.N) :
    (dat0 (F := Ideal) V c).flushed 5 t = ((cfg0.win 5).blk t).view.read (Elt Ideal) (hidden V c) := by
  show (cfg0.win 5).cut (grid0.coords t) ((dat0 V c).after 5 t) = _
  rw [after0_5]
  unfold out0_5
  rw [View.canon_unit_zero hz]
  simp only [View.ld_unit_zero (S := S5000x64) hz, View.ld_unit_zero (S := S64x64) hz, View.ld_unit_zero (S := S1x64) hz]
  obtain ⟨e00, e01, e10, e11, e20, e21, e30, e31, e40, e41, e50, e51⟩ := idx_facts t
  funext j
  show k0_pay1 (F := Ideal) (iblk0 V c 0 t) (iblk0 V c 1 t) (iblk0 V c 2 t) (iblk0 V c 3 t) (iblk0 V c 4 t) j
    = hidden V c (((cfg0.win 5).blk t).view.emb j)
  have hemb : ((cfg0.win 5).blk t).view.emb j = ix2 (row t (j 0)) (j 1) := by
    funext a; apply Fin.ext
    match a with
    | ⟨0, _⟩ => show win0_5.index t (0 : Fin 2) * 5000 + 1 * (j 0).val = t.val * 5000 + (j 0).val; omega
    | ⟨1, _⟩ => show win0_5.index t (1 : Fin 2) * 64 + 1 * (j 1).val = (j 1).val; omega
  rw [hemb]
  refine block_eq t _ _ _ _ _ _ _ _ _ _ (fun p k => ?_) (fun p k => ?_) (fun q k => ?_) (fun q k => ?_) (fun q => ?_) j
  · show V c main_v21 (((cfg0.win 0).blk t).view.emb (ix2 p k)) = V c main_v21 (ix2 (row t p) k)
    refine congrArg _ (funext fun a => Fin.ext ?_)
    match a with
    | ⟨0, _⟩ => show win0_0.index t (0 : Fin 2) * 5000 + 1 * p.val = t.val * 5000 + p.val; omega
    | ⟨1, _⟩ => show win0_0.index t (1 : Fin 2) * 64 + 1 * k.val = k.val; omega
  · show V c main_arg0 (((cfg0.win 1).blk t).view.emb (ix2 p k)) = V c main_arg0 (ix2 (row t p) k)
    refine congrArg _ (funext fun a => Fin.ext ?_)
    match a with
    | ⟨0, _⟩ => show win0_1.index t (0 : Fin 2) * 5000 + 1 * p.val = t.val * 5000 + p.val; omega
    | ⟨1, _⟩ => show win0_1.index t (1 : Fin 2) * 64 + 1 * k.val = k.val; omega
  · show V c main_arg2 (((cfg0.win 2).blk t).view.emb (ix2 q k)) = V c main_arg2 (ix2 q k)
    refine congrArg _ (funext fun a => Fin.ext ?_)
    match a with
    | ⟨0, _⟩ => show win0_2.index t (0 : Fin 2) * 64 + 1 * q.val = q.val; omega
    | ⟨1, _⟩ => show win0_2.index t (1 : Fin 2) * 64 + 1 * k.val = k.val; omega
  · show V c main_arg3 (((cfg0.win 3).blk t).view.emb (ix2 q k)) = V c main_arg3 (ix2 q k)
    refine congrArg _ (funext fun a => Fin.ext ?_)
    match a with
    | ⟨0, _⟩ => show win0_3.index t (0 : Fin 2) * 64 + 1 * q.val = q.val; omega
    | ⟨1, _⟩ => show win0_3.index t (1 : Fin 2) * 64 + 1 * k.val = k.val; omega
  · show V c main_v22 (((cfg0.win 4).blk t).view.emb (ix2 (0 : Fin 1) q)) = V c main_v22 (ix2 (0 : Fin 1) q)
    refine congrArg _ (funext fun a => Fin.ext ?_)
    match a with
    | ⟨0, _⟩ => show win0_4.index t (0 : Fin 2) * 1 + 1 * (0 : Nat) = 0; omega
    | ⟨1, _⟩ => show win0_4.index t (1 : Fin 2) * 64 + 1 * q.val = q.val; omega

/-- An index of the array is in point t's block iff each coordinate is in the block's range on its axis. -/
theorem mem_blk (t : Fin cfg0.N) (i : S100000x64.Idx) :
    i ∈ ((cfg0.win 5).blk t).view.set ↔ ∀ a : Fin 2, win0_5.index t a * S5000x64.size a ≤ (i a).val
      ∧ (i a).val < win0_5.index t a * S5000x64.size a + S5000x64.size a := by
  show i ∈ ((View.whole main_v23).slice (win0_5.rect t)).set ↔ _
  rw [View.set_slice_whole, Rect.mem_set_unit]
  exact Iff.rfl

/-- The blocks tile the array: row r is in the block of point r / 5000. -/
theorem cover (i : S100000x64.Idx) :
    ∃ t : Fin cfg0.N, (cfg0.win 5).flush t = true ∧ i ∈ ((cfg0.win 5).blk t).view.set := by
  have hi0 : (i 0).val < 100000 := (i 0).isLt
  have hi1 : (i 1).val < 64 := (i 1).isLt
  have ht : (i 0).val / 5000 < 20 := by omega
  obtain ⟨-, -, -, -, -, -, -, -, -, -, e50, e51⟩ := idx_facts ⟨(i 0).val / 5000, ht⟩
  refine ⟨⟨(i 0).val / 5000, ht⟩, flush0_5 _, ?_⟩
  rw [mem_blk]
  intro a
  match a with
  | ⟨0, _⟩ =>
    show win0_5.index ⟨(i 0).val / 5000, ht⟩ (0 : Fin 2) * 5000 ≤ (i 0).val
      ∧ (i 0).val < win0_5.index ⟨(i 0).val / 5000, ht⟩ (0 : Fin 2) * 5000 + 5000
    rw [e50]
    show (i 0).val / 5000 * 5000 ≤ (i 0).val ∧ (i 0).val < (i 0).val / 5000 * 5000 + 5000
    omega
  | ⟨1, _⟩ =>
    show win0_5.index ⟨(i 0).val / 5000, ht⟩ (1 : Fin 2) * 64 ≤ (i 1).val
      ∧ (i 1).val < win0_5.index ⟨(i 0).val / 5000, ht⟩ (1 : Fin 2) * 64 + 64
    rw [e51]
    omega

/-- The region's output array ends holding the hidden layer of the arrays the region found. -/
theorem final (c : Dev nD) : (dat0 (F := Ideal) V c).arrAt 5 cfg0.N = hidden V c :=
  (dat0 (F := Ideal) V c).arrAt_eq_of_cover 5 (hidden V c) (fun t _ => flushed_eq V c t) (cover)

end Cert.KernelIdeal.Region0

end
-- ==== Proof.Region1.lean ====
/-
  Region 1: the padded output layer as one whole array.

  The second pipelined region runs over 20 grid points; point t takes rows 5000 t … 5000 t + 4999 of the mean-aggregated
  hidden features and of the hidden features, the two 128 × 64 weight matrices and the 1 × 128 bias row whole, and
  writes rows 5000 t … 5000 t + 4999 of the output: at (r, q)
  Σ k, mean (r, k) · Wl (q, k) + Σ k, h (r, k) · Wr (q, k) + bias (0, q), with no clipping. Each point's write-back is the
  corresponding block of rows of one 100000 × 128 array, the blocks tile it, and the region's output array ends
  holding it.
-/
import proofs.«134031_j31344671326737_2_alg».proof.Proof.Gen.KernelIdeal.Frame
import proofs.«134031_j31344671326737_2_alg».proof.Proof.LibSageDense
import Idealize.ShloMosaic.Lib.ValueIdx
import Idealize.ShloMosaic.Lib.Pipeline.Value

set_option maxRecDepth 16384

noncomputable section

open scoped BigOperators

namespace Cert.KernelIdeal.Region1

open Cert.KernelIdeal Cert.KernelIdeal.Gen
open Idealize.ShloMosaic Idealize.ShloMosaic.TcCoe Idealize.ShloMosaic.ValueIdx Idealize.SL.Sem
open Idealize.ShloMosaic.Pipeline (Dat Cfg Window)
open Cert.Lib

/-- The body's result at (p, q), from the blocks it loads. -/
theorem payload_apply (x0 x1 : Vec Ideal S5000x64 .f32) (x2 x3 : Vec Ideal S128x64 .f32) (x4 : Vec Ideal S1x128 .f32)
    (p : Fin 5000) (q : Fin 128) :
    k1_pay1 (F := Ideal) x0 x1 x2 x3 x4 (ix2 p q) = SageDense.dense x0 x1 x2 x3 x4 (ix2 p q) := by
  unfold k1_pay1
  simp only [shapeCast_self]
  exact SageDense.kernel_apply Facts₀.dot_S5000x64_S64x128_S5000x128_1_0_0_1_n_n_wf Facts₀.transposes_S128x64_p1_0_S64x128
    Facts₀.broadcasts_S1x128_S5000x128 _ _ _ _ _ p q

/-- Row p of point t's block is row 5000 t + p of the array. -/
def row (t : Fin cfg1.N) (p : Fin 5000) : Fin 100000 :=
  ⟨t.val * 5000 + p.val, by have ht : t.val < 20 := t.isLt; have := p.isLt; omega⟩

/-- A block whose arrays are rows of whole arrays computes rows of the stage. -/
theorem block_eq (t : Fin cfg1.N) (x0 x1 : Vec Ideal S5000x64 .f32) (x2 x3 : Vec Ideal S128x64 .f32) (x4 : Vec Ideal S1x128 .f32)
    (A H : S100000x64.Idx → EReal) (Wl Wr : S128x64.Idx → EReal) (brow : S1x128.Idx → EReal)
    (h0 : ∀ (p : Fin 5000) (k : Fin 64), x0 (ix2 p k) = A (ix2 (row t p) k))
    (h1 : ∀ (p : Fin 5000) (k : Fin 64), x1 (ix2 p k) = H (ix2 (row t p) k))
    (h2 : ∀ (q : Fin 128) (k : Fin 64), x2 (ix2 q k) = Wl (ix2 q k))
    (h3 : ∀ (q : Fin 128) (k : Fin 64), x3 (ix2 q k) = Wr (ix2 q k))
    (h4 : ∀ q : Fin 128, x4 (ix2 (0 : Fin 1) q) = brow (ix2 (0 : Fin 1) q)) (j : S5000x128.Idx) :
    k1_pay1 (F := Ideal) x0 x1 x2 x3 x4 j = SageDense.dense A H Wl Wr brow (ix2 (row t (j 0)) (j 1)) := by
  obtain ⟨p, q, rfl⟩ : ∃ (p : Fin 5000) (q : Fin 128), j = ix2 p q := ⟨j 0, j 1, eq_ix2 j⟩
  rw [payload_apply]
  exact SageDense.dense_rows (row t) x0 x1 x2 x3 x4 A H Wl Wr brow h0 h1 h2 h3 h4 p q

theorem hz : (![0, 0] : Fin 2 → Nat) = fun _ => 0 := funext fun a => by fin_cases a <;> rfl

/-- The printed index maps over the grid: the row-tiled windows sit at block row t, the whole ones at the origin. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

variable (V : (c : Dev nD) → (b : Ref sig .tc) → Buf (Elt Ideal) ((c : Thread nD τ).loc b))

/-- The padded output layer of the arrays as the region finds them. -/
def padded (c : Dev nD) : S100000x128.Idx → EReal :=
  SageDense.dense (V c main_v35 : S100000x64.Idx → EReal) (V c main_v23 : S100000x64.Idx → EReal)
    (V c main_v36 : S128x64.Idx → EReal) (V c main_v37 : S128x64.Idx → EReal) (V c main_v39 : S1x128.Idx → EReal)

/-- What point t writes back is block t of the padded output layer. -/
theorem flushed_eq (c : Dev nD) (t : Fin cfg1.N) :
    (dat1 (F := Ideal) V c).flushed 5 t = ((cfg1.win 5).blk t).view.read (Elt Ideal) (padded V c) := by
  show (cfg1.win 5).cut (grid1.coords t) ((dat1 V c).after 5 t) = _
  rw [after1_5]
  unfold out1_5
  rw [View.canon_unit_zero hz]
  simp only [View.ld_unit_zero (S := S5000x64) hz, View.ld_unit_zero (S := S128x64) hz, View.ld_unit_zero (S := S1x128) hz]
  obtain ⟨e00, e01, e10, e11, e20, e21, e30, e31, e40, e41, e50, e51⟩ := idx_facts t
  funext j
  show k1_pay1 (F := Ideal) (iblk1 V c 0 t) (iblk1 V c 1 t) (iblk1 V c 2 t) (iblk1 V c 3 t) (iblk1 V c 4 t) j
    = padded V c (((cfg1.win 5).blk t).view.emb j)
  have hemb : ((cfg1.win 5).blk t).view.emb j = ix2 (row t (j 0)) (j 1) := by
    funext a; apply Fin.ext
    match a with
    | ⟨0, _⟩ => show win1_5.index t (0 : Fin 2) * 5000 + 1 * (j 0).val = t.val * 5000 + (j 0).val; omega
    | ⟨1, _⟩ => show win1_5.index t (1 : Fin 2) * 128 + 1 * (j 1).val = (j 1).val; omega
  rw [hemb]
  refine block_eq t _ _ _ _ _ _ _ _ _ _ (fun p k => ?_) (fun p k => ?_) (fun q k => ?_) (fun q k => ?_) (fun q => ?_) j
  · show V c main_v35 (((cfg1.win 0).blk t).view.emb (ix2 p k)) = V c main_v35 (ix2 (row t p) k)
    refine congrArg _ (funext fun a => Fin.ext ?_)
    match a with
    | ⟨0, _⟩ => show win1_0.index t (0 : Fin 2) * 5000 + 1 * p.val = t.val * 5000 + p.val; omega
    | ⟨1, _⟩ => show win1_0.index t (1 : Fin 2) * 64 + 1 * k.val = k.val; omega
  · show V c main_v23 (((cfg1.win 1).blk t).view.emb (ix2 p k)) = V c main_v23 (ix2 (row t p) k)
    refine congrArg _ (funext fun a => Fin.ext ?_)
    match a with
    | ⟨0, _⟩ => show win1_1.index t (0 : Fin 2) * 5000 + 1 * p.val = t.val * 5000 + p.val; omega
    | ⟨1, _⟩ => show win1_1.index t (1 : Fin 2) * 64 + 1 * k.val = k.val; omega
  · show V c main_v36 (((cfg1.win 2).blk t).view.emb (ix2 q k)) = V c main_v36 (ix2 q k)
    refine congrArg _ (funext fun a => Fin.ext ?_)
    match a with
    | ⟨0, _⟩ => show win1_2.index t (0 : Fin 2) * 128 + 1 * q.val = q.val; omega
    | ⟨1, _⟩ => show win1_2.index t (1 : Fin 2) * 64 + 1 * k.val = k.val; omega
  · show V c main_v37 (((cfg1.win 3).blk t).view.emb (ix2 q k)) = V c main_v37 (ix2 q k)
    refine congrArg _ (funext fun a => Fin.ext ?_)
    match a with
    | ⟨0, _⟩ => show win1_3.index t (0 : Fin 2) * 128 + 1 * q.val = q.val; omega
    | ⟨1, _⟩ => show win1_3.index t (1 : Fin 2) * 64 + 1 * k.val = k.val; omega
  · show V c main_v39 (((cfg1.win 4).blk t).view.emb (ix2 (0 : Fin 1) q)) = V c main_v39 (ix2 (0 : Fin 1) q)
    refine congrArg _ (funext fun a => Fin.ext ?_)
    match a with
    | ⟨0, _⟩ => show win1_4.index t (0 : Fin 2) * 1 + 1 * (0 : Nat) = 0; omega
    | ⟨1, _⟩ => show win1_4.index t (1 : Fin 2) * 128 + 1 * q.val = q.val; omega

/-- An index of the array is in point t's block iff each coordinate is in the block's range on its axis. -/
theorem mem_blk (t : Fin cfg1.N) (i : S100000x128.Idx) :
    i ∈ ((cfg1.win 5).blk t).view.set ↔ ∀ a : Fin 2, win1_5.index t a * S5000x128.size a ≤ (i a).val
      ∧ (i a).val < win1_5.index t a * S5000x128.size a + S5000x128.size a := by
  show i ∈ ((View.whole main_v40).slice (win1_5.rect t)).set ↔ _
  rw [View.set_slice_whole, Rect.mem_set_unit]
  exact Iff.rfl

/-- The blocks tile the array: row r is in the block of point r / 5000. -/
theorem cover (i : S100000x128.Idx) :
    ∃ t : Fin cfg1.N, (cfg1.win 5).flush t = true ∧ i ∈ ((cfg1.win 5).blk t).view.set := by
  have hi0 : (i 0).val < 100000 := (i 0).isLt
  have hi1 : (i 1).val < 128 := (i 1).isLt
  have ht : (i 0).val / 5000 < 20 := by omega
  obtain ⟨-, -, -, -, -, -, -, -, -, -, e50, e51⟩ := idx_facts ⟨(i 0).val / 5000, ht⟩
  refine ⟨⟨(i 0).val / 5000, ht⟩, flush1_5 _, ?_⟩
  rw [mem_blk]
  intro a
  match a with
  | ⟨0, _⟩ =>
    show win1_5.index ⟨(i 0).val / 5000, ht⟩ (0 : Fin 2) * 5000 ≤ (i 0).val
      ∧ (i 0).val < win1_5.index ⟨(i 0).val / 5000, ht⟩ (0 : Fin 2) * 5000 + 5000
    rw [e50]
    show (i 0).val / 5000 * 5000 ≤ (i 0).val ∧ (i 0).val < (i 0).val / 5000 * 5000 + 5000
    omega
  | ⟨1, _⟩ =>
    show win1_5.index ⟨(i 0).val / 5000, ht⟩ (1 : Fin 2) * 128 ≤ (i 1).val
      ∧ (i 1).val < win1_5.index ⟨(i 0).val / 5000, ht⟩ (1 : Fin 2) * 128 + 128
    rw [e51]
    omega

/-- The region's output array ends holding the padded output layer of the arrays the region found. -/
theorem final (c : Dev nD) : (dat1 (F := Ideal) V c).arrAt 5 cfg1.N = padded V c :=
  (dat1 (F := Ideal) V c).arrAt_eq_of_cover 5 (padded V c) (fun t _ => flushed_eq V c t) (cover)

end Cert.KernelIdeal.Region1

end
-- ==== Proof.LibAfterAppend.lean ====
/-
  The contents after two lines of host operations run one after the other.

  The buffers' contents after a list of operations is a fold: each operation in turn rewrites the buffers it writes. Over a
  list that is one line followed by another, the fold is the second line's fold started from the first line's result. This
  lets a long line be read in stretches, the contents between two stretches named once. It holds over any signature and
  any value type.
-/
import Idealize.ShloMosaic.Lib.StableHlo.Run

noncomputable section

namespace Cert.Lib.AfterAppend

open Idealize.ShloMosaic Idealize.ShloMosaic.StableHlo

variable {τ : Topo} {sig : RefSig} {Val : EltTy → Type}

/-- After `l₁` followed by `l₂`: after `l₂`, from what `l₁` left. -/
theorem after_append (l₁ l₂ : List (HloOp τ sig Val)) (V : Valuation τ sig Val) :
    after (l₁ ++ l₂) V = after l₂ (after l₁ V) := by
  induction l₁ generalizing V with
  | nil => rfl
  | cons op l ih => exact ih (op.result V)

end Cert.Lib.AfterAppend

end
-- ==== Proof.Walk.lean ====
/-
  The kernel program's buffers at its segment boundaries, as functions of the arguments.

  From the launch memory the first stretch of host operations leaves the mean of the neighbours' features, the bias
  row, the degree column and the two index vectors; the first region replaces its output array by the hidden layer of
  those; the seven stretches up to the second region — read as one list — leave the second mean (from the hidden
  layer, the index vectors and the degree column, all unchanged since they were written), the padded weights and the
  padded bias row; the second region replaces its output array by the padded output layer; the last stretch keeps its
  first two columns. Every buffer a segment does not write keeps its contents across it.
-/
import proofs.«134031_j31344671326737_2_alg».proof.Proof.Gen.KernelIdeal.Frame
import proofs.«134031_j31344671326737_2_alg».proof.Proof.Stages
import proofs.«134031_j31344671326737_2_alg».proof.Proof.Region0
import proofs.«134031_j31344671326737_2_alg».proof.Proof.Region1
import proofs.«134031_j31344671326737_2_alg».proof.Proof.LibAfterAppend
import Idealize.ShloMosaic.Lib.StableHlo.Run

set_option maxRecDepth 16384

noncomputable section

namespace Cert.KernelIdeal.Walk

open Cert.KernelIdeal Cert.KernelIdeal.Gen
open Idealize.ShloMosaic Idealize.ShloMosaic.TcCoe Idealize.SL.Sem Idealize.ShloMosaic.StableHlo
open Cert.Lib

variable (m : (ℓ : Loc nD τ sig) → Buf (Elt Ideal) ℓ) (ρ : Dev nD → PrngReg) (c : Dev nD)

/-! ## The arguments -/

abbrev x0 : FVec Ideal S100000x64 .f32 := m ((c.tc : Thread nD τ).loc main_arg0)
abbrev ei : IVec S2x1000000 32 := m ((c.tc : Thread nD τ).loc main_arg1)
abbrev x2 : FVec Ideal S64x64 .f32 := m ((c.tc : Thread nD τ).loc main_arg2)
abbrev x3 : FVec Ideal S64x64 .f32 := m ((c.tc : Thread nD τ).loc main_arg3)
abbrev x4 : FVec Ideal S64 .f32 := m ((c.tc : Thread nD τ).loc main_arg4)
abbrev x5 : FVec Ideal S2x64 .f32 := m ((c.tc : Thread nD τ).loc main_arg5)
abbrev x6 : FVec Ideal S2x64 .f32 := m ((c.tc : Thread nD τ).loc main_arg6)
abbrev x7 : FVec Ideal S2 .f32 := m ((c.tc : Thread nD τ).loc main_arg7)

/-! ## After the first stretch -/

theorem W1_mean : W1 m ρ c (Proc.devRef .tc main_v21) = Stages.mean1 (x0 m c) (ei m c) := by
  show StableHlo.after hostOps0 (W0 m ρ c) (Proc.devRef .tc main_v21) = _
  after_results_simp <;> rfl

theorem W1_bias : W1 m ρ c (Proc.devRef .tc main_v22) = Stages.biasRow1 (x4 m c) := by
  show StableHlo.after hostOps0 (W0 m ρ c) (Proc.devRef .tc main_v22) = _
  after_results_simp <;> rfl

theorem W1_deg : W1 m ρ c (Proc.devRef .tc main_v19) = Stages.degCol (x0 m c) (ei m c) := by
  show StableHlo.after hostOps0 (W0 m ρ c) (Proc.devRef .tc main_v19) = _
  after_results_simp <;> rfl

theorem W1_src : W1 m ρ c (Proc.devRef .tc main_v1) = Stages.srcVec (ei m c) := by
  show StableHlo.after hostOps0 (W0 m ρ c) (Proc.devRef .tc main_v1) = _
  after_results_simp <;> rfl

theorem W1_dst : W1 m ρ c (Proc.devRef .tc main_v3) = Stages.dstVec (ei m c) := by
  show StableHlo.after hostOps0 (W0 m ρ c) (Proc.devRef .tc main_v3) = _
  after_results_simp <;> rfl

theorem W1_arg0 : W1 m ρ c (Proc.devRef .tc main_arg0) = x0 m c := by
  show StableHlo.after hostOps0 (W0 m ρ c) (Proc.devRef .tc main_arg0) = _
  after_results_simp <;> rfl
theorem W1_arg2 : W1 m ρ c (Proc.devRef .tc main_arg2) = x2 m c := by
  show StableHlo.after hostOps0 (W0 m ρ c) (Proc.devRef .tc main_arg2) = _
  after_results_simp <;> rfl
theorem W1_arg3 : W1 m ρ c (Proc.devRef .tc main_arg3) = x3 m c := by
  show StableHlo.after hostOps0 (W0 m ρ c) (Proc.devRef .tc main_arg3) = _
  after_results_simp <;> rfl
theorem W1_arg5 : W1 m ρ c (Proc.devRef .tc main_arg5) = x5 m c := by
  show StableHlo.after hostOps0 (W0 m ρ c) (Proc.devRef .tc main_arg5) = _
  after_results_simp <;> rfl
theorem W1_arg6 : W1 m ρ c (Proc.devRef .tc main_arg6) = x6 m c := by
  show StableHlo.after hostOps0 (W0 m ρ c) (Proc.devRef .tc main_arg6) = _
  after_results_simp <;> rfl
theorem W1_arg7 : W1 m ρ c (Proc.devRef .tc main_arg7) = x7 m c := by
  show StableHlo.after hostOps0 (W0 m ρ c) (Proc.devRef .tc main_arg7) = _
  after_results_simp <;> rfl

/-! ## After the first region -/

/-- The hidden layer, from the arguments. -/
def hiddenLayer : S100000x64.Idx → EReal :=
  Region0.hiddenOf (Stages.mean1 (x0 m c) (ei m c)) (x0 m c) (x2 m c) (x3 m c) (Stages.biasRow1 (x4 m c))

theorem W2_hidden : W2 m ρ c (Proc.devRef .tc main_v23) = hiddenLayer m c := by
  refine (W2_arr m ρ c 5).trans ((Region0.final (V1 m ρ) c).trans ?_)
  unfold Region0.hidden hiddenLayer
  show Region0.hiddenOf (W1 m ρ c (Proc.devRef .tc main_v21)) (W1 m ρ c (Proc.devRef .tc main_arg0))
    (W1 m ρ c (Proc.devRef .tc main_arg2)) (W1 m ρ c (Proc.devRef .tc main_arg3)) (W1 m ρ c (Proc.devRef .tc main_v22)) = _
  rw [W1_mean, W1_arg0, W1_arg2, W1_arg3, W1_bias]

theorem W2_deg : W2 m ρ c (Proc.devRef .tc main_v19) = Stages.degCol (x0 m c) (ei m c) :=
  (W2_of_ne m ρ c main_v19 (by decide)).trans (W1_deg m ρ c)
theorem W2_src : W2 m ρ c (Proc.devRef .tc main_v1) = Stages.srcVec (ei m c) :=
  (W2_of_ne m ρ c main_v1 (by decide)).trans (W1_src m ρ c)
theorem W2_dst : W2 m ρ c (Proc.devRef .tc main_v3) = Stages.dstVec (ei m c) :=
  (W2_of_ne m ρ c main_v3 (by decide)).trans (W1_dst m ρ c)
theorem W2_arg5 : W2 m ρ c (Proc.devRef .tc main_arg5) = x5 m c :=
  (W2_of_ne m ρ c main_arg5 (by decide)).trans (W1_arg5 m ρ c)
theorem W2_arg6 : W2 m ρ c (Proc.devRef .tc main_arg6) = x6 m c :=
  (W2_of_ne m ρ c main_arg6 (by decide)).trans (W1_arg6 m ρ c)
theorem W2_arg7 : W2 m ρ c (Proc.devRef .tc main_arg7) = x7 m c :=
  (W2_of_ne m ρ c main_arg7 (by decide)).trans (W1_arg7 m ρ c)

/-! ## Up to the second region: seven stretches as one list -/

/-- The contents at the second region's entry: the seven stretches' operations, in order, from the first region's exit. -/
theorem W9_eq : W9 m ρ c = StableHlo.after
    (hostOps1 ++ hostOps1_1 ++ hostOps1_2 ++ hostOps1_3 ++ hostOps1_4 ++ hostOps1_5 ++ hostOps1_6) (W2 m ρ c) := by
  simp only [AfterAppend.after_append]

theorem W9_mean : W9 m ρ c (Proc.devRef .tc main_v35) = Stages.mean2 (hiddenLayer m c) (x0 m c) (ei m c) := by
  refine (congrFun (W9_eq m ρ c) (Proc.devRef .tc main_v35)).trans ?_
  simp only [hostOps1, hostOps1_1, hostOps1_2, hostOps1_3, hostOps1_4, hostOps1_5, hostOps1_6, List.cons_append, List.nil_append]
  after_results_simp
  rw [W2_src, W2_dst, W2_deg, W2_hidden]
  rfl

theorem W9_hidden : W9 m ρ c (Proc.devRef .tc main_v23) = hiddenLayer m c := by
  refine (congrFun (W9_eq m ρ c) (Proc.devRef .tc main_v23)).trans ?_
  simp only [hostOps1, hostOps1_1, hostOps1_2, hostOps1_3, hostOps1_4, hostOps1_5, hostOps1_6, List.cons_append, List.nil_append]
  after_results_simp
  exact W2_hidden m ρ c

theorem W9_wl : W9 m ρ c (Proc.devRef .tc main_v36) = Stages.padW (x5 m c) := by
  refine (congrFun (W9_eq m ρ c) (Proc.devRef .tc main_v36)).trans ?_
  simp only [hostOps1, hostOps1_1, hostOps1_2, hostOps1_3, hostOps1_4, hostOps1_5, hostOps1_6, List.cons_append, List.nil_append]
  after_results_simp
  rw [W2_arg5]
  rfl

theorem W9_wr : W9 m ρ c (Proc.devRef .tc main_v37) = Stages.padW (x6 m c) := by
  refine (congrFun (W9_eq m ρ c) (Proc.devRef .tc main_v37)).trans ?_
  simp only [hostOps1, hostOps1_1, hostOps1_2, hostOps1_3, hostOps1_4, hostOps1_5, hostOps1_6, List.cons_append, List.nil_append]
  after_results_simp
  rw [W2_arg6]
  rfl

theorem W9_bias : W9 m ρ c (Proc.devRef .tc main_v39) = Stages.padB (x7 m c) := by
  refine (congrFun (W9_eq m ρ c) (Proc.devRef .tc main_v39)).trans ?_
  simp only [hostOps1, hostOps1_1, hostOps1_2, hostOps1_3, hostOps1_4, hostOps1_5, hostOps1_6, List.cons_append, List.nil_append]
  after_results_simp
  rw [W2_arg7]
  rfl

/-! ## After the second region, and the result -/

/-- The padded output layer, from the arguments. -/
def paddedLayer : S100000x128.Idx → EReal :=
  SageDense.dense (Stages.mean2 (hiddenLayer m c) (x0 m c) (ei m c)) (hiddenLayer m c)
    (Stages.padW (x5 m c)) (Stages.padW (x6 m c)) (Stages.padB (x7 m c))

theorem W10_padded : W10 m ρ c (Proc.devRef .tc main_v40) = paddedLayer m c := by
  refine (W10_arr m ρ c 5).trans ((Region1.final (V9 m ρ) c).trans ?_)
  unfold Region1.padded paddedLayer
  show SageDense.dense (W9 m ρ c (Proc.devRef .tc main_v35)) (W9 m ρ c (Proc.devRef .tc main_v23))
    (W9 m ρ c (Proc.devRef .tc main_v36)) (W9 m ρ c (Proc.devRef .tc main_v37)) (W9 m ρ c (Proc.devRef .tc main_v39)) = _
  rw [W9_mean, W9_hidden, W9_wl, W9_wr, W9_bias]

/-- THE RESULT: the first two columns of the padded output layer. -/
theorem W11_result : W11 m ρ c (Proc.devRef .tc main_v41)
    = extractStridedSlice S100000x2 ![0, 0] (paddedLayer m c) Facts₀.slices_S100000x128_S100000x2_0_0 := by
  show StableHlo.after hostOps2 (W10 m ρ c) (Proc.devRef .tc main_v41) = _
  after_results_simp
  rw [W10_padded]

end Cert.KernelIdeal.Walk

end
-- ==== Proof.Layers.lean ====
/-
  The kernel's two dense layers against the reference's.

  With the mean of the neighbours' features equal on the two sides, the first region's hidden layer is the reference's
  hidden layer: both are, at (p, q), the maximum of zero and the two-matrix dense stage. The second layer's mean uses
  the same degree on both sides. The second region runs on weights and bias padded from 2 to 128 output columns; the
  padding fills only rows 2 … 127 of the weights and entries 2 … 127 of the bias, which feed output columns
  2 … 127, and the program keeps columns 0 and 1: these are the reference's result.
-/
import proofs.«134031_j31344671326737_2_alg».proof.Proof.Stages
import proofs.«134031_j31344671326737_2_alg».proof.Proof.LibSageDense
import proofs.«134031_j31344671326737_2_alg».proof.Proof.Region0
import proofs.«134031_j31344671326737_2_alg».proof.Proof.Region1
import Idealize.ShloMosaic.Lib.ValueLayout
import Idealize.ShloMosaic.Lib.KernelVsHost

set_option maxRecDepth 16384

noncomputable section

open scoped BigOperators

namespace Cert.KernelIdeal.Stages

open Cert.KernelIdeal
open Idealize.ShloMosaic Idealize.ShloMosaic.TcCoe Idealize.ShloMosaic.ValueIdx
open Cert.Lib Cert.Lib.GatherScatter

/-! ## The hidden layer -/

/-- The hidden layer of the reference's mean, the features, the weights and the bias row is the reference's. -/
theorem hidden_eq (x : FVec Ideal S100000x64 .f32) (ei : IVec S2x1000000 32) (Wl Wr : FVec Ideal S64x64 .f32)
    (b : FVec Ideal S64 .f32) :
    Region0.hiddenOf (Cert.ReferenceIdeal.Read.val_main_v22 (F := Ideal) x ei) x Wl Wr (biasRow1 b)
      = Cert.ReferenceIdeal.Read.val_main_v31 (F := Ideal) x ei Wl Wr b := by
  funext i
  obtain ⟨p, q, rfl⟩ : ∃ (p : Fin 100000) (q : Fin 64), i = ix2 p q := ⟨i 0, i 1, eq_ix2 i⟩
  have hd : SageDense.dense (Cert.ReferenceIdeal.Read.val_main_v22 (F := Ideal) x ei) x Wl Wr (biasRow1 b) (ix2 p q)
      = Cert.ReferenceIdeal.Read.val_main_v30 (F := Ideal) x ei Wl Wr b (ix2 p q) := by
    unfold biasRow1
    rw [Rows.castRow_eq_dimRow b Facts₀.shapeCasts_S64_S1x64 Cert.ReferenceIdeal.Facts₀.bcast_S64_S1x64_1]
    unfold Cert.ReferenceIdeal.Read.val_main_v30 Cert.ReferenceIdeal.Read.val_main_v27 Cert.ReferenceIdeal.Read.val_main_v24
      Cert.ReferenceIdeal.Read.val_main_v26 Cert.ReferenceIdeal.Read.val_main_v29 Cert.ReferenceIdeal.Read.val_main_v28
      Cert.ReferenceIdeal.Read.val_main_v23 Cert.ReferenceIdeal.Read.val_main_v25
    exact (SageDense.host_apply Cert.ReferenceIdeal.Facts₀.dot_S100000x64_S64x64_S100000x64_1_0_0_1_n_n_wf
      Cert.ReferenceIdeal.Facts₀.transposes_S64x64_S64x64_1_0 Cert.ReferenceIdeal.Facts₀.bcast_S1x64_S100000x64_0_1
      _ _ _ _ _ p q).symm
  rw [Cert.ReferenceIdeal.Read.val_main_v31_apply, Cert.ReferenceIdeal.Read.val_main_call0_v0_apply,
    Cert.ReferenceIdeal.Read.val_main_call0_cst_apply, Ideal.maximumf_def, Ideal.ofBits_def]
  unfold Region0.hiddenOf
  rw [hd]

/-! ## The second layer's mean -/

/-- On the reference's hidden layer it is the reference's second mean: the degree is the same array. -/
theorem mean2_eq (x : FVec Ideal S100000x64 .f32) (ei : IVec S2x1000000 32) (Wl Wr : FVec Ideal S64x64 .f32)
    (b : FVec Ideal S64 .f32) :
    mean2 (Cert.ReferenceIdeal.Read.val_main_v31 (F := Ideal) x ei Wl Wr b) x ei
      = Cert.ReferenceIdeal.Read.val_main_v50 (F := Ideal) x ei Wl Wr b := by
  unfold mean2
  rw [degree_eq]
  rfl

/-! ## The padded second layer and the two columns kept -/

/-- Column q of the two kept columns, as a column of the padded array. -/
abbrev keep (q : Fin 2) : Fin 128 := ⟨q.val, by have := q.isLt; omega⟩

theorem padW_apply (W : FVec Ideal S2x64 .f32) (q : Fin 2) (k : Fin 64) : padW W (ix2 (keep q) k) = W (ix2 q k) :=
  pad_apply_of_inside _ _ _ W _ Facts₀.pads_S2x64_S128x64_01260_000 Facts₀.h_S_ (ix2 (keep q) k) (ix2 q k) fun a => by
    match a with
    | ⟨0, _⟩ => show q.val = 0 + q.val * (0 + 1); omega
    | ⟨1, _⟩ => show k.val = 0 + k.val * (0 + 1); omega

theorem padB_apply (b : FVec Ideal S2 .f32) (q : Fin 2) :
    padB b (ix2 (0 : Fin 1) (keep q))
      = Cert.ReferenceIdeal.Read.val_main_v56 (F := Ideal) b (ix2 (0 : Fin 1) q) := by
  unfold padB
  rw [MergeRows.row_apply, Cert.ReferenceIdeal.Read.val_main_v56_apply]
  refine (pad_apply_of_inside _ _ _ b _ Facts₀.pads_S2_S128_01260 Facts₀.h_S_ (ix1 (keep q)) (ix1 q) fun a => by
    match a with
    | ⟨0, _⟩ => show q.val = 0 + q.val * (0 + 1); omega).trans ?_
  exact congrArg b (funext fun a => Fin.ext (by match a with | ⟨0, _⟩ => rfl))

/-- The first two columns of the padded output layer, on the reference's second mean and hidden layer, are the
    reference's result. -/
theorem output_eq (x : FVec Ideal S100000x64 .f32) (ei : IVec S2x1000000 32) (Wl1 Wr1 : FVec Ideal S64x64 .f32)
    (b1 : FVec Ideal S64 .f32) (Wl2 Wr2 : FVec Ideal S2x64 .f32) (b2 : FVec Ideal S2 .f32) :
    extractStridedSlice S100000x2 ![0, 0]
        (SageDense.dense (Cert.ReferenceIdeal.Read.val_main_v50 (F := Ideal) x ei Wl1 Wr1 b1)
          (Cert.ReferenceIdeal.Read.val_main_v31 (F := Ideal) x ei Wl1 Wr1 b1) (padW Wl2) (padW Wr2) (padB b2))
        Facts₀.slices_S100000x128_S100000x2_0_0
      = Cert.ReferenceIdeal.Read.val_main_v58 (F := Ideal) x ei Wl1 Wr1 b1 Wl2 Wr2 b2 := by
  funext i
  obtain ⟨p, q, rfl⟩ : ∃ (p : Fin 100000) (q : Fin 2), i = ix2 p q := ⟨i 0, i 1, eq_ix2 i⟩
  rw [slice2_axis1_apply 0 _ Facts₀.slices_S100000x128_S100000x2_0_0 p q (keep q) (Nat.zero_add _).symm]
  rw [SageDense.dense_restrict keep _ _ (Wl2 : S2x64.Idx → EReal) (Wr2 : S2x64.Idx → EReal)
    (Cert.ReferenceIdeal.Read.val_main_v56 (F := Ideal) b2) (padW Wl2) (padW Wr2) (padB b2)
    (padW_apply Wl2) (padW_apply Wr2) (padB_apply b2) p q]
  unfold Cert.ReferenceIdeal.Read.val_main_v58 Cert.ReferenceIdeal.Read.val_main_v55 Cert.ReferenceIdeal.Read.val_main_v52
    Cert.ReferenceIdeal.Read.val_main_v54 Cert.ReferenceIdeal.Read.val_main_v57 Cert.ReferenceIdeal.Read.val_main_v51
    Cert.ReferenceIdeal.Read.val_main_v53
  exact (SageDense.host_apply Cert.ReferenceIdeal.Facts₀.dot_S100000x64_S64x2_S100000x2_1_0_0_1_n_n_wf
    Cert.ReferenceIdeal.Facts₀.transposes_S2x64_S64x2_1_0 Cert.ReferenceIdeal.Facts₀.bcast_S1x2_S100000x2_0_1
    _ _ _ _ _ p q).symm

end Cert.KernelIdeal.Stages

end
-- ==== Proof.KernelValue.lean ====
/-
  The kernel's result is the reference's result.

  The contents the kernel's program leaves in its result buffer — the first two columns of the padded output layer of the
  second mean and the hidden layer, themselves functions of the arguments — are, stage by stage, the reference's: the
  first mean, then the hidden layer, then the second mean, then the two kept columns of the output layer.
-/
import proofs.«134031_j31344671326737_2_alg».proof.Proof.Walk
import proofs.«134031_j31344671326737_2_alg».proof.Proof.Layers

set_option maxRecDepth 16384

noncomputable section

namespace Cert.KernelIdeal.Result

open Cert.KernelIdeal Cert.KernelIdeal.Gen
open Idealize.ShloMosaic Idealize.ShloMosaic.TcCoe Idealize.SL.Sem

variable (m : (ℓ : Loc nD τ sig) → Buf (Elt Ideal) ℓ) (ρ : Dev nD → PrngReg) (c : Dev nD)

/-- The last boundary's contents at the result buffer: the reference's result term at the kernel's arguments. -/
theorem result_eq :
    W11 m ρ c (Proc.devRef .tc main_v41)
      = Cert.ReferenceIdeal.Read.val_main_v58 (F := Ideal) (Walk.x0 m c) (Walk.ei m c) (Walk.x2 m c) (Walk.x3 m c)
          (Walk.x4 m c) (Walk.x5 m c) (Walk.x6 m c) (Walk.x7 m c) := by
  rw [Walk.W11_result]
  unfold Walk.paddedLayer Walk.hiddenLayer
  rw [Stages.mean1_eq, Stages.hidden_eq, Stages.mean2_eq]
  exact Stages.output_eq _ _ _ _ _ _ _ _

end Cert.KernelIdeal.Result

end
-- ==== Proof.lean ====
/-
  A two-layer GraphSAGE network with mean aggregation, against its reference.

  Both programs compute, for each layer, the mean over a node's incoming edges of the source nodes' features — the sum
  accumulated along the edge list divided by the degree clipped below at one —, multiply it by one weight matrix, add the
  node's own features multiplied by another and a bias, and clip the first layer's result below at zero. The kernel
  differs from the reference in four ways, none of which changes a value on the extended reals: it obtains the degree
  as the accumulation of a column of ones appended to the features, in the same pass as the features' sums, and uses it
  for both layers; it runs each layer's two matrix products, bias and clip in a pipelined region over blocks of 5000
  rows, with the operands cast to a shorter float format, which at the exact values is the identity; it pads the second
  layer's weights and bias from 2 to 128 output columns; and it keeps only the first two columns of that layer's
  output. Term by term the sums are the same on the two sides, so no property of the inputs is used.

  The three frames are the generated ones (the reference's is its generated run with the result dropped); the ideal pass
  rewrote nothing, so there is nothing to preserve; the algebraic claim puts the kernel's run, with its result named,
  beside the reference's generated run, and equates the two result terms.
-/
import proofs.«134031_j31344671326737_2_alg».proof.Defs
import proofs.«134031_j31344671326737_2_alg».proof.Proof.Gen.Kernel
import proofs.«134031_j31344671326737_2_alg».proof.Proof.Gen.Kernel.Skeleton
import proofs.«134031_j31344671326737_2_alg».proof.Proof.Gen.Kernel.Launch
import proofs.«134031_j31344671326737_2_alg».proof.Proof.Gen.Kernel.Points
import proofs.«134031_j31344671326737_2_alg».proof.Proof.Gen.Kernel.Frame
import proofs.«134031_j31344671326737_2_alg».proof.Proof.Gen.KernelIdeal
import proofs.«134031_j31344671326737_2_alg».proof.Proof.Gen.KernelIdeal.Skeleton
import proofs.«134031_j31344671326737_2_alg».proof.Proof.Gen.KernelIdeal.Launch
import proofs.«134031_j31344671326737_2_alg».proof.Proof.Gen.KernelIdeal.Points
import proofs.«134031_j31344671326737_2_alg».proof.Proof.Gen.KernelIdeal.Frame
import proofs.«134031_j31344671326737_2_alg».proof.Proof.Gen.ReferenceIdeal
import proofs.«134031_j31344671326737_2_alg».proof.Proof.Gen.ReferenceIdeal.Run
import proofs.«134031_j31344671326737_2_alg».proof.Proof.Gen.ReferenceIdeal.Read
import proofs.«134031_j31344671326737_2_alg».proof.Proof.Gen.Pre_finite_inputs
import proofs.«134031_j31344671326737_2_alg».proof.Proof.KernelRun
import proofs.«134031_j31344671326737_2_alg».proof.Proof.KernelValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- The kernel's result buffer ends at the reference's result term of the kernel's arguments, and the reference's at that
    term of its own arguments, which agree with the kernel's. -/
theorem algebraic : Cert.algebraic_KernelIdeal_ReferenceIdeal := by
  intro m ρ m' ρ' _ hagree
  refine ⟨fun c => Cert.KernelIdeal.Gen.W11 m ρ c (Proc.devRef .tc Cert.KernelIdeal.main_v41),
    Cert.KernelIdeal.RunValue.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7⟩ := hagree c
  rw [Cert.ReferenceIdeal.Read.val_main_v58_eq, h0, h1, h2, h3, h4, h5, h6, h7]
  exact (Cert.KernelIdeal.Result.result_eq m ρ c).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
